-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  main_v3
-- ==== Kernel.lean ====
abbrev S64x1024x64 : Shape := ⟨3, ![64, 1024, 64]⟩
abbrev S2x8x128 : Shape := ⟨3, ![2, 8, 128]⟩
abbrev S2x1x1 : Shape := ⟨3, ![2, 1, 1]⟩
abbrev S2 : Shape := ⟨1, ![2]⟩
abbrev S_ : Shape := ⟨0, ![]⟩
abbrev S8x1024x64 : Shape := ⟨3, ![8, 1024, 64]⟩
abbrev S1x8x128 : Shape := ⟨3, ![1, 8, 128]⟩
abbrev S1x1 : Shape := ⟨2, ![1, 1]⟩
abbrev S8x64x64 : Shape := ⟨3, ![8, 64, 64]⟩
abbrev S8x64 : Shape := ⟨2, ![8, 64]⟩
abbrev S8 : Shape := ⟨1, ![8]⟩
abbrev S8x1 : Shape := ⟨2, ![8, 1]⟩
abbrev S8x1024 : Shape := ⟨2, ![8, 1024]⟩
abbrev S1 : Shape := ⟨1, ![1]⟩

abbrev nBuf : Space → Nat
  | .hbm => 16
  | .vmem => 8
  | .smem => 0
  | _ => 0

abbrev bufTy : (tb : Table) → Fin (tcTables nBuf tb) → BufTy
  | .hbm, ⟨0, _⟩ => ⟨S64x1024x64, .f32⟩
  | .hbm, ⟨1, _⟩ => ⟨S2x8x128, .f32⟩
  | .hbm, ⟨2, _⟩ => ⟨S2x8x128, .f32⟩
  | .hbm, ⟨3, _⟩ => ⟨S2x1x1, .f32⟩
  | .hbm, ⟨4, _⟩ => ⟨S2, .f32⟩
  | .hbm, ⟨5, _⟩ => ⟨S_, .f32⟩
  | .hbm, ⟨6, _⟩ => ⟨S_, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S8x1024x64, .f32⟩
  | .local _ .vmem, ⟨1, _⟩ => ⟨S8x1024x64, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | .local _ .vmem, ⟨7, _⟩ => ⟨S1x1, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_cst_2 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v37 : BitVec 1 := Scalar.cmpi .eq arg1 c3_i32
  let v38 : BitVec 32 := Scalar.extui v37
  let c0_i32_20 : BitVec 32 := 0#32
  let v39 : BitVec 1 := Scalar.cmpi .ne v38 c0_i32_20
  v39

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x1024x64_S8x1024x64_0_0_0 : ∀ a, (![0, 0, 0] : Fin 3 → Nat) a + S8x1024x64.size a ≤ S8x1024x64.size a
  h_S8x1024x64 : 0 < S8x1024x64.numel
  bitsLt_bf16_f32 : FTy.bits .bf16 < FTy.bits .f32
  reduces_S8x64x64_S8x64 : S8x64x64.Reduces [2] S8x64
  reduces_S8x64_S8 : S8x64.Reduces [1] S8
  shapeCasts_S8_S8x1 : S8.ShapeCasts S8x1
  reduces_S8x1024x64_S8x1024 : S8x1024x64.Reduces [2] S8x1024
  reduces_S8x1024_S8 : S8x1024.Reduces [1] S8
  reduces_S8x1_S1 : S8x1.Reduces [0] S1
  shapeCasts_S1_S1x1 : S1.ShapeCasts S1x1
  iota_S1x8x128_d1_w32 : S1x8x128.Iotas .tc 32 [1]
  iota_S1x8x128_d2_w32 : S1x8x128.Iotas .tc 32 [2]
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  dot_S8x1024x64_S8x1024x64_S8x64x64_1_1_2_2_0_0_wf : DotDims.WF S8x1024x64 S8x1024x64 S8x64x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x64.size a ≤ S64x1024x64.size a
  hwx0_0 : ∀ i : grid0.Coords, EltTy.bits .f32 = 32 ∨ (Rect.block (s := S64x1024x64) S8x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

def dot_S8x1024x64_S8x1024x64_S8x64x64_1_1_2_2_0_0 : DotDims S8x1024x64 S8x1024x64 S8x64x64 where
  lhsContracting := [1]
  rhsContracting := [1]
  lhsNonContracting := [2]
  rhsNonContracting := [2]
  lhsBatch := [0]
  rhsBatch := [0]
  wf := dot_S8x1024x64_S8x1024x64_S8x64x64_1_1_2_2_0_0_wf

abbrev win0_0 : Pipeline.Window sig grid0 :=
  Pipeline.Window.ofSpec (Memref.whole main_arg0) S8x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0_0) S1x8x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S64x1024 : Shape := ⟨2, ![64, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x1024, .f32⟩
  | .hbm, ⟨2, _⟩ => ⟨S1024, .i32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x1, .i32⟩
  | .hbm, ⟨20, _⟩ => ⟨S1024x2, .i32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S64x1024, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S_, .f32⟩
  | .hbm, ⟨31, _⟩ => ⟨S_, .f32⟩
  | .hbm, ⟨32, _⟩ => ⟨S64x1024x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_v2 : Ref sig .tc := ⟨.hbm, 5, rfl⟩
abbrev main_call0_v3 : Ref sig .tc := ⟨.hbm, 6, rfl⟩
abbrev main_call0_c_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_v7 : Ref sig .tc := ⟨.hbm, 12, rfl⟩
abbrev main_call0_v8 : Ref sig .tc := ⟨.hbm, 13, rfl⟩
abbrev main_call0_c_2 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_cst_4 : Ref sig .tc := ⟨.hbm, 38, rfl⟩
abbrev main_v13 : Ref sig .tc := ⟨.hbm, 39, rfl⟩
abbrev main_v14 : Ref sig .tc := ⟨.hbm, 40, rfl⟩
abbrev main_cst_5 : Ref sig .tc := ⟨.hbm, 41, rfl⟩
abbrev main_v15 : Ref sig .tc := ⟨.hbm, 42, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S_S64x1024 : S_.BroadcastsInDim S64x1024 (![] : Fin 0 → Fin S64x1024.rank)
  reducesTo_S64x1024_S_d0_1 : S64x1024.ReducesTo [0, 1] S_
  h_S_ : 0 < S_.numel
  reducesTo_S64x1024x1024_S_d0_1_2 : S64x1024x1024.ReducesTo [0, 1, 2] S_
  dot_S64x1024x64_S64x1024x64_S64x1024x1024_2_2_1_1_0_0_wf : DotDims.WF S64x1024x64 S64x1024x64 S64x1024x1024 [2] [2] [1] [1] [0] [0]
  gather_S64x1024x1024_S1024x2_S64x1024_0_12_n_n_12_1_6411_wf : GatherDims.WF S64x1024x1024 S1024x2 S64x1024 [0] [1, 2] [] [1, 2] [] 1 ![64, 1, 1]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def gather_S64x1024x1024_S1024x2_S64x1024_0_12_n_n_12_1_6411 : GatherDims S64x1024x1024 S1024x2 S64x1024 where
  offsetDims := [0]
  collapsedSliceDims := [1, 2]
  operandBatchingDims := []
  startIndicesBatchingDims := []
  startIndexMap := [1, 2]
  indexVectorDim := 1
  sliceSizes := ![64, 1, 1]
  wf := gather_S64x1024x1024_S1024x2_S64x1024_0_12_n_n_12_1_6411_wf

class Facts : Prop extends Facts₀ where

variable [Facts]
-- ==== Proof.CaseValues.lean ====
/-
  What each control case of the kernel body leaves behind, read back as values. The body keeps two one-word
  accumulators (the diagonal term and the off-diagonal term) in scratch memory. At the first block of a core it
  stores zero into each and then adds the block's term; at a later block it adds the block's term to what the block
  before left; at a core's last block it also stores each accumulator, just updated, at position (0,0,0) of an
  otherwise zero output block. Each lemma says: the pieces the run found, read back, are that payload.
-/
import proofs.«136636_j37520834298331_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First block of a core: the diagonal accumulator ends at zero plus the block's term. -/
theorem first_diag (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8x1024x64 .f32) :
    sout0_A_0 c i arg2 harg2 arg3 harg3 arg4 harg4 arg5 harg5 arg6 harg6 hc0 hc1 x0 = k0_pay9 x0 (k0_pay5 (F := F)) := by
  unfold sout0_A_0
  rw [View.read_writes_eq_canon _ _ _ (scover0_A_0 c i arg2 harg2 arg3 harg3 arg4 harg4 arg5 harg5 arg6 harg6 hc0 hc1 x0)]
  unfold kernelRun0_A
  dsimp only
  sl_unfold_words
  rw [View.canon_cons_unit_zero (S := S1x1) hz2, View.readCov_unit_zero (S := S1x1) _ hz2]
  simp only [View.readAt_eq_ld, harg2.read_unread, harg5.read_unread, harg6.read_unread, View.ld_unit_zero (S := S8x1024x64) hz3, View.ld_unit_zero (S := S1x1) hz2]

/-- First block of a core: the off-diagonal accumulator ends at zero plus the block's term. -/
theorem first_off (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S8x1024x64 .f32) :
    sout0_A_1 c i arg2 harg2 arg3 harg3 arg4 harg4 arg5 harg5 arg6 harg6 hc0 hc1 x0 = k0_pay1 (k0_pay10 x0 (k0_pay6 (F := F))) := by
  unfold sout0_A_1
  rw [View.read_writes_eq_canon _ _ _ (scover0_A_1 c i arg2 harg2 arg3 harg3 arg4 harg4 arg5 harg5 arg6 harg6 hc0 hc1 x0)]
  unfold kernelRun0_A
  dsimp only
  sl_unfold_words
  rw [View.canon_cons_unit_zero (S := S1x1) hz2, View.readCov_unit_zero (S := S1x1) _ hz2]
  simp only [View.readAt_eq_ld, harg2.read_unread, harg5.read_unread, harg6.read_unread, View.ld_unit_zero (S := S8x1024x64) hz3, View.ld_unit_zero (S := S1x1) hz2]

/-- A middle block: the diagonal accumulator ends at what it held plus the block's term. -/
theorem mid_diag (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8x1024x64 .f32) (xs0 xs1 : Vec F S1x1 .f32) :
    sout0_B_0 c i arg2 harg2 arg3 harg3 arg4 harg4 arg5 harg5 arg6 harg6 hc0 hc1 x0 xs0 xs1 = k0_pay9 x0 xs0 := by
  unfold sout0_B_0
  rw [View.read_writes_eq_canon _ _ _ (scover0_B_0 c i arg2 harg2 arg3 harg3 arg4 harg4 arg5 harg5 arg6 harg6 hc0 hc1 x0 xs0 xs1)]
  unfold kernelRun0_B
  dsimp only
  sl_unfold_words
  rw [View.canon_unit_zero (S := S1x1) hz2]
  simp only [View.readAt_eq_ld, harg2.read_unread, harg5.read_unread, harg6.read_unread, View.ld_unit_zero (S := S8x1024x64) hz3, View.ld_unit_zero (S := S1x1) hz2]

/-- A middle block: the off-diagonal accumulator ends at what it held plus the block's term. -/
theorem mid_off (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S8x1024x64 .f32) (xs0 xs1 : Vec F S1x1 .f32) :
    sout0_B_1 c i arg2 harg2 arg3 harg3 arg4 harg4 arg5 harg5 arg6 harg6 hc0 hc1 x0 xs0 xs1 = k0_pay1 (k0_pay10 x0 xs1) := by
  unfold sout0_B_1
  rw [View.read_writes_eq_canon _ _ _ (scover0_B_1 c i arg2 harg2 arg3 harg3 arg4 harg4 arg5 harg5 arg6 harg6 hc0 hc1 x0 xs0 xs1)]
  unfold kernelRun0_B
  dsimp only
  sl_unfold_words
  rw [View.canon_unit_zero (S := S1x1) hz2]
  simp only [View.readAt_eq_ld, harg2.read_unread, harg5.read_unread, harg6.read_unread, View.ld_unit_zero (S := S8x1024x64) hz3, View.ld_unit_zero (S := S1x1) hz2]

/-- A core's last block: the diagonal accumulator as at a middle block. -/
theorem last_diag (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8x1024x64 .f32) (xs0 xs1 : Vec F S1x1 .f32) :
    sout0_C_0 c i arg2 harg2 arg3 harg3 arg4 harg4 arg5 harg5 arg6 harg6 hc0 hc1 x0 xs0 xs1 = k0_pay9 x0 xs0 := by
  unfold sout0_C_0
  rw [View.read_writes_eq_canon _ _ _ (scover0_C_0 c i arg2 harg2 arg3 harg3 arg4 harg4 arg5 harg5 arg6 harg6 hc0 hc1 x0 xs0 xs1)]
  unfold kernelRun0_C
  dsimp only
  sl_unfold_words
  rw [View.canon_unit_zero (S := S1x1) hz2]
  simp only [View.readAt_eq_ld, harg2.read_unread, harg5.read_unread, harg6.read_unread, View.ld_unit_zero (S := S8x1024x64) hz3, View.ld_unit_zero (S := S1x1) hz2]

/-- A core's last block: the off-diagonal accumulator as at a middle block. -/
theorem last_off (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8x1024x64 .f32) (xs0 xs1 : Vec F S1x1 .f32) :
    sout0_C_1 c i arg2 harg2 arg3 harg3 arg4 harg4 arg5 harg5 arg6 harg6 hc0 hc1 x0 xs0 xs1 = k0_pay1 (k0_pay10 x0 xs1) := by
  unfold sout0_C_1
  rw [View.read_writes_eq_canon _ _ _ (scover0_C_1 c i arg2 harg2 arg3 harg3 arg4 harg4 arg5 harg5 arg6 harg6 hc0 hc1 x0 xs0 xs1)]
  unfold kernelRun0_C
  dsimp only
  sl_unfold_words
  rw [View.canon_unit_zero (S := S1x1) hz2]
  simp only [View.readAt_eq_ld, harg2.read_unread, harg5.read_unread, harg6.read_unread, View.ld_unit_zero (S := S8x1024x64) hz3, View.ld_unit_zero (S := S1x1) hz2]

/-- A core's last block: the first output block is the masked splat of the diagonal accumulator just updated. -/
theorem last_out_diag (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8x1024x64 .f32) (xs0 xs1 : Vec F S1x1 .f32) :
    out0_C_1 c i arg2 harg2 arg3 harg3 arg4 harg4 arg5 harg5 arg6 harg6 hc0 hc1 x0 xs0 xs1 = k0_pay3 (k0_pay9 x0 xs0) := by
  unfold out0_C_1
  rw [View.read_writes_eq_canon _ _ _ (cover0_C_1 c i arg2 harg2 arg3 harg3 arg4 harg4 arg5 harg5 arg6 harg6 hc0 hc1 x0 xs0 xs1)]
  unfold kernelRun0_C
  dsimp only
  sl_unfold_words
  rw [View.canon_unit_zero (S := S1x8x128) hz3, View.readCov_unit_zero (S := S1x1) _ hz2]
  simp only [View.readAt_eq_ld, harg2.read_unread, harg5.read_unread, harg6.read_unread, View.ld_unit_zero (S := S8x1024x64) hz3, View.ld_unit_zero (S := S1x1) hz2]

/-- A core's last block: the second output block is the masked splat of the off-diagonal accumulator just updated. -/
theorem last_out_off (c : Dev nD) (i : grid0.Coords) (arg2 : Memref sig .tc .vmem S8x1024x64 .f32) (harg2 : arg2.IsWhole) (arg3 : Memref sig .tc .vmem S1x8x128 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S8x1024x64 .f32) (xs0 xs1 : Vec F S1x1 .f32) :
    out0_C_2 c i arg2 harg2 arg3 harg3 arg4 harg4 arg5 harg5 arg6 harg6 hc0 hc1 x0 xs0 xs1 = k0_pay4 (k0_pay1 (k0_pay10 x0 xs1)) := by
  unfold out0_C_2
  rw [View.read_writes_eq_canon _ _ _ (cover0_C_2 c i arg2 harg2 arg3 harg3 arg4 harg4 arg5 harg5 arg6 harg6 hc0 hc1 x0 xs0 xs1)]
  unfold kernelRun0_C
  dsimp only
  sl_unfold_words
  rw [View.canon_unit_zero (S := S1x8x128) hz3, View.readCov_unit_zero (S := S1x1) _ hz2]
  simp only [View.readAt_eq_ld, harg2.read_unread, harg5.read_unread, harg6.read_unread, View.ld_unit_zero (S := S8x1024x64) hz3, View.ld_unit_zero (S := S1x1) hz2]

end Cert.KernelIdeal.CaseValues

end
-- ==== Proof.Chain.lean ====
/-
  The two accumulators point by point. After grid point n (core n / 4, step n % 4) the diagonal accumulator holds
  the running sum of the diagonal terms of that core's blocks up to step n % 4, started from zero at step 0, and the
  off-diagonal accumulator likewise. The contents the frame run records for the scratch buffers are this chain, by
  induction on the point; and at a core's last step the two output blocks hold the masked splats of the chain.
-/
import proofs.«136636_j37520834298331_2_alg».proof.Proof.CaseValues

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.CaseValues

variable {F : FTy → Type} [FloatOps F]
variable (m : (ℓ : Loc nD τ sig) → Buf (Elt F) ℓ)

/-- The pair (diagonal accumulator, off-diagonal accumulator) after point n. -/
def acc (c : Dev nD) : (n : ℕ) → n < cfg0.N → Vec F S1x1 .f32 × Vec F S1x1 .f32
  | 0, h => (k0_pay9 (iblk m c 0 ⟨0, h⟩) (k0_pay5 (F := F)), k0_pay1 (k0_pay10 (iblk m c 0 ⟨0, h⟩) (k0_pay6 (F := F))))
  | n + 1, h =>
    if (n + 1) % 4 = 0 then
      (k0_pay9 (iblk m c 0 ⟨n + 1, h⟩) (k0_pay5 (F := F)), k0_pay1 (k0_pay10 (iblk m c 0 ⟨n + 1, h⟩) (k0_pay6 (F := F))))
    else
      (k0_pay9 (iblk m c 0 ⟨n + 1, h⟩) (acc c n (Nat.lt_of_succ_lt h)).1,
        k0_pay1 (k0_pay10 (iblk m c 0 ⟨n + 1, h⟩) (acc c n (Nat.lt_of_succ_lt h)).2))

/-- What the run records in the two scratch buffers after point n is the chain. -/
theorem scratch_eq (c : Dev nD) : ∀ (n : ℕ) (h : n < cfg0.N), (outsAt0 m c n h).2.2 = acc m c n h
  | 0, h => by
    rw [outsAt0_A m c ⟨0, h⟩ rfl (by show ¬(0 % 4 = 3); decide)]
    dsimp only
    rw [first_diag, first_off]
    rfl
  | n + 1, h => by
    have ih := scratch_eq c n (Nat.lt_of_succ_lt h)
    by_cases h0 : (n + 1) % 4 = 0
    · have h1 : ¬(n + 1) % 4 = 3 := by omega
      rw [outsAt0_A m c ⟨n + 1, h⟩ h0 h1]
      dsimp only
      rw [first_diag, first_off]
      unfold acc
      rw [if_pos h0]
    · by_cases h1 : (n + 1) % 4 = 3
      · rw [outsAt0_C m c ⟨n + 1, h⟩ h0 h1]
        dsimp only
        rw [last_diag, last_off]
        unfold acc
        rw [if_neg h0]
        show (k0_pay9 _ (outsAt0 m c n _).2.2.1, k0_pay1 (k0_pay10 _ (outsAt0 m c n _).2.2.2)) = _
        rw [ih]
      · rw [outsAt0_B m c ⟨n + 1, h⟩ h0 h1]
        dsimp only
        rw [mid_diag, mid_off]
        unfold acc
        rw [if_neg h0]
        show (k0_pay9 _ (outsAt0 m c n _).2.2.1, k0_pay1 (k0_pay10 _ (outsAt0 m c n _).2.2.2)) = _
        rw [ih]

/-- At a core's last step the first output block is the masked splat of the diagonal accumulator. -/
theorem out_diag (c : Dev nD) (t : Fin cfg0.N) (h1 : t.val % 4 = 3) :
    (outsAt0 m c t.val t.isLt).1 = k0_pay3 (acc m c t.val t.isLt).1 := by
  have h0 : ¬t.val % 4 = 0 := by omega
  have hs := scratch_eq m c t.val t.isLt
  rw [outsAt0_C m c t h0 h1] at hs ⊢
  dsimp only at hs ⊢
  rw [last_diag, last_off] at hs
  rw [last_out_diag, ← hs]

/-- At a core's last step the second output block is the masked splat of the off-diagonal accumulator. -/
theorem out_off (c : Dev nD) (t : Fin cfg0.N) (h1 : t.val % 4 = 3) :
    (outsAt0 m c t.val t.isLt).2.1 = k0_pay4 (acc m c t.val t.isLt).2 := by
  have h0 : ¬t.val % 4 = 0 := by omega
  have hs := scratch_eq m c t.val t.isLt
  rw [outsAt0_C m c t h0 h1] at hs ⊢
  dsimp only at hs ⊢
  rw [last_diag, last_off] at hs
  rw [last_out_off, ← hs]

end Cert.KernelIdeal.Chain

end
-- ==== Proof.KernelArrays.lean ====
/-
  The two output arrays after the run. Each is [2, 8, 128]: row block c is written back once, at core c's last step
  (grid points 3 and 7), and holds the masked splat of that core's accumulator. The two write-backs cover the array,
  so the final array is that function of the index.
-/
import proofs.«136636_j37520834298331_2_alg».proof.Proof.Chain
import Idealize.ShloMosaic.Lib.Pipeline.Value

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Chain

variable {F : FTy → Type} [FloatOps F]
variable (m : (ℓ : Loc nD τ sig) → Buf (Elt F) ℓ)

theorem lt3 : 3 < cfg0.N := by rw [show cfg0.N = 8 from N_0]; decide
theorem lt7 : 7 < cfg0.N := by rw [show cfg0.N = 8 from N_0]; decide

/-- The points at which a core finishes are 3 and 7. -/
theorem last_points (t : Fin cfg0.N) (h : t.val % 4 = 3) : t = t0_3 ∨ t = t0_7 := by
  have hN : cfg0.N = 8 := N_0
  have ht := t.isLt
  have : t.val = 3 ∨ t.val = 7 := by omega
  rcases this with h' | h'
  · exact Or.inl (Fin.ext h')
  · exact Or.inr (Fin.ext h')

/-- An array index's position inside its row block. -/
def inBlock (i : S2x8x128.Idx) : S1x8x128.Idx := fun a => match a with
  | ⟨0, _⟩ => ⟨0, Nat.one_pos⟩
  | ⟨1, _⟩ => ⟨(i 1 : Nat), (i 1).isLt⟩
  | ⟨2, _⟩ => ⟨(i 2 : Nat), (i 2).isLt⟩

/-- The first output array as one function of its index: row block 0 from core 0's last step, row block 1 from core 1's. -/
def arrD (c : Dev nD) : Buf (Elt F) ((c : Thread nD τ).loc main_call0_v0_0) :=
  (fun (i : S2x8x128.Idx) =>
    if (i 0 : Nat) = 0 then k0_pay3 (acc m c 3 lt3).1 (inBlock i) else k0_pay3 (acc m c 7 lt7).1 (inBlock i) : Vec F S2x8x128 .f32)

/-- What a flushing point writes back is its block of that function. -/
theorem flushedD (c : Dev nD) (t : Fin cfg0.N) (hf : (cfg0.win 1).flush t = true) :
    (dats m 0 c).flushed 1 t = ((cfg0.win 1).blk t).view.read (Elt F) (arrD m c) := by
  have h3 : t.val % 4 = 3 := (flush0_1 t).mp hf
  rcases last_points t h3 with rfl | rfl
  · show (cfg0.win 1).cut (grid0.coords t0_3) ((dats m 0 c).after 1 t0_3) = _
    rw [after0_1, out_diag m c t0_3 (by decide)]
    funext y
    rw [View.read_apply]
    show k0_pay3 (acc m c 3 _).1 y = arrD m c (((cfg0.win 1).blk t0_3).view.emb y)
    have hy0 : (y 0 : Nat) < 1 := (y 0).isLt
    have e0 : (((((cfg0.win 1).blk t0_3).view.emb y) 0 : Fin 2) : Nat) = 0 := by
      show win0_1.index t0_3 0 * 1 + 1 * (y 0 : Nat) = 0
      rw [show win0_1.index t0_3 0 = 0 from by decide +kernel]; omega
    unfold arrD
    rw [if_pos e0]
    refine congrArg _ (funext fun a => Fin.ext ?_)
    match a with
    | ⟨0, _⟩ => show (y 0 : Nat) = 0; omega
    | ⟨1, _⟩ =>
      show (y 1 : Nat) = win0_1.index t0_3 1 * 8 + 1 * (y 1 : Nat)
      rw [show win0_1.index t0_3 1 = 0 from by decide +kernel]; omega
    | ⟨2, _⟩ =>
      show (y 2 : Nat) = win0_1.index t0_3 2 * 128 + 1 * (y 2 : Nat)
      rw [show win0_1.index t0_3 2 = 0 from by decide +kernel]; omega
  · show (cfg0.win 1).cut (grid0.coords t0_7) ((dats m 0 c).after 1 t0_7) = _
    rw [after0_1, out_diag m c t0_7 (by decide)]
    funext y
    rw [View.read_apply]
    show k0_pay3 (acc m c 7 _).1 y = arrD m c (((cfg0.win 1).blk t0_7).view.emb y)
    have hy0 : (y 0 : Nat) < 1 := (y 0).isLt
    have e0 : (((((cfg0.win 1).blk t0_7).view.emb y) 0 : Fin 2) : Nat) = 1 := by
      show win0_1.index t0_7 0 * 1 + 1 * (y 0 : Nat) = 1
      rw [show win0_1.index t0_7 0 = 1 from by decide +kernel]; omega
    unfold arrD
    rw [if_neg (by rw [e0]; decide)]
    refine congrArg _ (funext fun a => Fin.ext ?_)
    match a with
    | ⟨0, _⟩ => show (y 0 : Nat) = 0; omega
    | ⟨1, _⟩ =>
      show (y 1 : Nat) = win0_1.index t0_7 1 * 8 + 1 * (y 1 : Nat)
      rw [show win0_1.index t0_7 1 = 0 from by decide +kernel]; omega
    | ⟨2, _⟩ =>
      show (y 2 : Nat) = win0_1.index t0_7 2 * 128 + 1 * (y 2 : Nat)
      rw [show win0_1.index t0_7 2 = 0 from by decide +kernel]; omega

/-- The two flushed blocks cover the array, so it ends holding that function. -/
theorem finalD (c : Dev nD) : (dats m 0 c).arrAt 1 cfg0.N = arrD m c :=
  (dats m 0 c).arrAt_eq_of_cover 1 (arrD m c) (flushedD m c) fun i => by
    have h0 : (i 0 : Nat) < 2 := (i 0).isLt
    have h1 : (i 1 : Nat) < 8 := (i 1).isLt
    have h2 : (i 2 : Nat) < 128 := (i 2).isLt
    by_cases hi : (i 0 : Nat) = 0
    · refine ⟨t0_3, (flush0_1 t0_3).mpr (by decide), ?_⟩
      show i ∈ ((View.whole main_call0_v0_0).slice (win0_1.rect t0_3)).set
      rw [View.set_slice_whole, Rect.mem_set_unit]
      intro a
      match a with
      | ⟨0, _⟩ =>
        show win0_1.index t0_3 0 * win0_1.size 0 ≤ (i 0 : Nat) ∧ (i 0 : Nat) < win0_1.index t0_3 0 * win0_1.size 0 + win0_1.xsize (grid0.coords t0_3) 0
        rw [show win0_1.index t0_3 0 * win0_1.size 0 = 0 from by decide +kernel, show win0_1.xsize (grid0.coords t0_3) 0 = 1 from by decide +kernel]; omega
      | ⟨1, _⟩ =>
        show win0_1.index t0_3 1 * win0_1.size 1 ≤ (i 1 : Nat) ∧ (i 1 : Nat) < win0_1.index t0_3 1 * win0_1.size 1 + win0_1.xsize (grid0.coords t0_3) 1
        rw [show win0_1.index t0_3 1 * win0_1.size 1 = 0 from by decide +kernel, show win0_1.xsize (grid0.coords t0_3) 1 = 8 from by decide +kernel]; omega
      | ⟨2, _⟩ =>
        show win0_1.index t0_3 2 * win0_1.size 2 ≤ (i 2 : Nat) ∧ (i 2 : Nat) < win0_1.index t0_3 2 * win0_1.size 2 + win0_1.xsize (grid0.coords t0_3) 2
        rw [show win0_1.index t0_3 2 * win0_1.size 2 = 0 from by decide +kernel, show win0_1.xsize (grid0.coords t0_3) 2 = 128 from by decide +kernel]; omega
    · refine ⟨t0_7, (flush0_1 t0_7).mpr (by decide), ?_⟩
      show i ∈ ((View.whole main_call0_v0_0).slice (win0_1.rect t0_7)).set
      rw [View.set_slice_whole, Rect.mem_set_unit]
      intro a
      match a with
      | ⟨0, _⟩ =>
        show win0_1.index t0_7 0 * win0_1.size 0 ≤ (i 0 : Nat) ∧ (i 0 : Nat) < win0_1.index t0_7 0 * win0_1.size 0 + win0_1.xsize (grid0.coords t0_7) 0
        rw [show win0_1.index t0_7 0 * win0_1.size 0 = 1 from by decide +kernel, show win0_1.xsize (grid0.coords t0_7) 0 = 1 from by decide +kernel]; omega
      | ⟨1, _⟩ =>
        show win0_1.index t0_7 1 * win0_1.size 1 ≤ (i 1 : Nat) ∧ (i 1 : Nat) < win0_1.index t0_7 1 * win0_1.size 1 + win0_1.xsize (grid0.coords t0_7) 1
        rw [show win0_1.index t0_7 1 * win0_1.size 1 = 0 from by decide +kernel, show win0_1.xsize (grid0.coords t0_7) 1 = 8 from by decide +kernel]; omega
      | ⟨2, _⟩ =>
        show win0_1.index t0_7 2 * win0_1.size 2 ≤ (i 2 : Nat) ∧ (i 2 : Nat) < win0_1.index t0_7 2 * win0_1.size 2 + win0_1.xsize (grid0.coords t0_7) 2
        rw [show win0_1.index t0_7 2 * win0_1.size 2 = 0 from by decide +kernel, show win0_1.xsize (grid0.coords t0_7) 2 = 128 from by decide +kernel]; omega

/-- The second output array as one function of its index: row block 0 from core 0's last step, row block 1 from core 1's. -/
def arrO (c : Dev nD) : Buf (Elt F) ((c : Thread nD τ).loc main_call0_v0_1) :=
  (fun (i : S2x8x128.Idx) =>
    if (i 0 : Nat) = 0 then k0_pay4 (acc m c 3 lt3).2 (inBlock i) else k0_pay4 (acc m c 7 lt7).2 (inBlock i) : Vec F S2x8x128 .f32)

/-- What a flushing point writes back is its block of that function. -/
theorem flushedO (c : Dev nD) (t : Fin cfg0.N) (hf : (cfg0.win 2).flush t = true) :
    (dats m 0 c).flushed 2 t = ((cfg0.win 2).blk t).view.read (Elt F) (arrO m c) := by
  have h3 : t.val % 4 = 3 := (flush0_2 t).mp hf
  rcases last_points t h3 with rfl | rfl
  · show (cfg0.win 2).cut (grid0.coords t0_3) ((dats m 0 c).after 2 t0_3) = _
    rw [after0_2, out_off m c t0_3 (by decide)]
    funext y
    rw [View.read_apply]
    show k0_pay4 (acc m c 3 _).2 y = arrO m c (((cfg0.win 2).blk t0_3).view.emb y)
    have hy0 : (y 0 : Nat) < 1 := (y 0).isLt
    have e0 : (((((cfg0.win 2).blk t0_3).view.emb y) 0 : Fin 2) : Nat) = 0 := by
      show win0_2.index t0_3 0 * 1 + 1 * (y 0 : Nat) = 0
      rw [show win0_2.index t0_3 0 = 0 from by decide +kernel]; omega
    unfold arrO
    rw [if_pos e0]
    refine congrArg _ (funext fun a => Fin.ext ?_)
    match a with
    | ⟨0, _⟩ => show (y 0 : Nat) = 0; omega
    | ⟨1, _⟩ =>
      show (y 1 : Nat) = win0_2.index t0_3 1 * 8 + 1 * (y 1 : Nat)
      rw [show win0_2.index t0_3 1 = 0 from by decide +kernel]; omega
    | ⟨2, _⟩ =>
      show (y 2 : Nat) = win0_2.index t0_3 2 * 128 + 1 * (y 2 : Nat)
      rw [show win0_2.index t0_3 2 = 0 from by decide +kernel]; omega
  · show (cfg0.win 2).cut (grid0.coords t0_7) ((dats m 0 c).after 2 t0_7) = _
    rw [after0_2, out_off m c t0_7 (by decide)]
    funext y
    rw [View.read_apply]
    show k0_pay4 (acc m c 7 _).2 y = arrO m c (((cfg0.win 2).blk t0_7).view.emb y)
    have hy0 : (y 0 : Nat) < 1 := (y 0).isLt
    have e0 : (((((cfg0.win 2).blk t0_7).view.emb y) 0 : Fin 2) : Nat) = 1 := by
      show win0_2.index t0_7 0 * 1 + 1 * (y 0 : Nat) = 1
      rw [show win0_2.index t0_7 0 = 1 from by decide +kernel]; omega
    unfold arrO
    rw [if_neg (by rw [e0]; decide)]
    refine congrArg _ (funext fun a => Fin.ext ?_)
    match a with
    | ⟨0, _⟩ => show (y 0 : Nat) = 0; omega
    | ⟨1, _⟩ =>
      show (y 1 : Nat) = win0_2.index t0_7 1 * 8 + 1 * (y 1 : Nat)
      rw [show win0_2.index t0_7 1 = 0 from by decide +kernel]; omega
    | ⟨2, _⟩ =>
      show (y 2 : Nat) = win0_2.index t0_7 2 * 128 + 1 * (y 2 : Nat)
      rw [show win0_2.index t0_7 2 = 0 from by decide +kernel]; omega

/-- The two flushed blocks cover the array, so it ends holding that function. -/
theorem finalO (c : Dev nD) : (dats m 0 c).arrAt 2 cfg0.N = arrO m c :=
  (dats m 0 c).arrAt_eq_of_cover 2 (arrO m c) (flushedO m c) fun i => by
    have h0 : (i 0 : Nat) < 2 := (i 0).isLt
    have h1 : (i 1 : Nat) < 8 := (i 1).isLt
    have h2 : (i 2 : Nat) < 128 := (i 2).isLt
    by_cases hi : (i 0 : Nat) = 0
    · refine ⟨t0_3, (flush0_2 t0_3).mpr (by decide), ?_⟩
      show i ∈ ((View.whole main_call0_v0_1).slice (win0_2.rect t0_3)).set
      rw [View.set_slice_whole, Rect.mem_set_unit]
      intro a
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 1 from by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 8 from by decide +kernel]; omega
      | ⟨2, _⟩ =>
        show win0_2.index t0_3 2 * win0_2.size 2 ≤ (i 2 : Nat) ∧ (i 2 : Nat) < win0_2.index t0_3 2 * win0_2.size 2 + win0_2.xsize (grid0.coords t0_3) 2
        rw [show win0_2.index t0_3 2 * win0_2.size 2 = 0 from by decide +kernel, show win0_2.xsize (grid0.coords t0_3) 2 = 128 from by decide +kernel]; omega
    · refine ⟨t0_7, (flush0_2 t0_7).mpr (by decide), ?_⟩
      show i ∈ ((View.whole main_call0_v0_1).slice (win0_2.rect t0_7)).set
      rw [View.set_slice_whole, Rect.mem_set_unit]
      intro a
      match a with
      | ⟨0, _⟩ =>
        show win0_2.index t0_7 0 * win0_2.size 0 ≤ (i 0 : Nat) ∧ (i 0 : Nat) < win0_2.index t0_7 0 * win0_2.size 0 + win0_2.xsize (grid0.coords t0_7) 0
        rw [show win0_2.index t0_7 0 * win0_2.size 0 = 1 from by decide +kernel, show win0_2.xsize (grid0.coords t0_7) 0 = 1 from by decide +kernel]; omega
      | ⟨1, _⟩ =>
        show win0_2.index t0_7 1 * win0_2.size 1 ≤ (i 1 : Nat) ∧ (i 1 : Nat) < win0_2.index t0_7 1 * win0_2.size 1 + win0_2.xsize (grid0.coords t0_7) 1
        rw [show win0_2.index t0_7 1 * win0_2.size 1 = 0 from by decide +kernel, show win0_2.xsize (grid0.coords t0_7) 1 = 8 from by decide +kernel]; omega
      | ⟨2, _⟩ =>
        show win0_2.index t0_7 2 * win0_2.size 2 ≤ (i 2 : Nat) ∧ (i 2 : Nat) < win0_2.index t0_7 2 * win0_2.size 2 + win0_2.xsize (grid0.coords t0_7) 2
        rw [show win0_2.index t0_7 2 * win0_2.size 2 = 0 from by decide +kernel, show win0_2.xsize (grid0.coords t0_7) 2 = 128 from by decide +kernel]; omega

end Cert.KernelIdeal.Arrays

end
-- ==== Proof.Consts.lean ====
/-
  The float words the two programs spell, as the extended reals they denote: 0.0, 1.0, 2.0 and 1024.0 are exact
  binary values, so each is the real number of the same name. (The words of 0.1 and 64.0 appear in the same place
  of both programs and are never evaluated.)
-/
import Idealize.ShloMosaic.PureOps.Ideal

noncomputable section

namespace Cert.Consts

open Idealize.ShloMosaic

/-- The word of +0.0 denotes 0. -/
theorem ofBits_zero : Ideal.ofBits .f32 0x00000000#32 = ((0 : ℝ) : EReal) := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 2.0 denotes 2. -/
theorem ofBits_two : Ideal.ofBits .f32 0x40000000#32 = ((2 : ℝ) : EReal) := by
  simp [Ideal.ofBits, Ideal.ieee, -EReal.coe_mul]; norm_num

/-- The word of 1024.0 denotes 1024. -/
theorem ofBits_1024 : Ideal.ofBits .f32 0x44800000#32 = ((1024 : ℝ) : EReal) := by
  simp [Ideal.ofBits, Ideal.ieee, -EReal.coe_mul]; norm_num

/-- The coercion from the reals to the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The last two steps both programs share: add c times the off-diagonal part, c the float nearest one tenth, and
    divide by 64. Neither word is ever evaluated. -/
def combine (A B : EReal) : EReal :=
  Ideal.div (A + Ideal.ofBits .f32 0x3DCCCCCD#32 * B) (Ideal.ofBits .f32 0x42800000#32)

end Cert.Consts

end
-- ==== Proof.KernelTail.lean ====
/-
  The host lines after the kernel. They take entry (c, 0, 0) of each output array for the two cores c, sum the two
  entries from zero, and combine the sums: (diagonal sum + c * off-diagonal sum) / 64.
-/
import proofs.«136636_j37520834298331_2_alg».proof.Proof.KernelArrays
import proofs.«136636_j37520834298331_2_alg».proof.Proof.Consts
import Idealize.ShloMosaic.Lib.StableHlo.Run
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Arrays Idealize.ShloMosaic.StableHlo Idealize.ShloMosaic.ValueIdx
open Cert.Consts (combine)

variable {F : FTy → Type} [FloatOps F]

/-- The host lines after the kernel, as one function of the two output arrays. -/
def tailOf (A1 A2 : FVec F S2x8x128 .f32) : FVec F S_ .f32 :=
  Host.divf (F := F)
    (addf
      (Host.reduceAdd (F := F) (shapeCast S2 (extractStridedSlice S2x1x1 ![0, 0, 0] A1 slices_S2x8x128_S2x1x1_0_0_0) shapeCasts_S2x1x1_S2)
        (constant (F := F) S_ .f32 0x00000000#32) reducesTo_S2_S_d0 h_S_)
      (mulf (constant (F := F) S_ .f32 0x3DCCCCCD#32)
        (Host.reduceAdd (F := F) (shapeCast S2 (extractStridedSlice S2x1x1 ![0, 0, 0] A2 slices_S2x8x128_S2x1x1_0_0_0) shapeCasts_S2x1x1_S2)
          (constant (F := F) S_ .f32 0x00000000#32) reducesTo_S2_S_d0 h_S_)))
    (constant (F := F) S_ .f32 0x42800000#32)

variable (m : (ℓ : Loc nD τ sig) → Buf (Elt F) ℓ)

/-- The result buffer after the run's tail is that function of the two final arrays. -/
theorem tail_run (c : Dev nD) :
    Pipeline.afterTail₀ cfgs (dats m) 0 (V0 m) [hostOps1] c main_v0 = tailOf (arrD m c) (arrO m c) := by
  have e1 := (Pipeline.withArrays_arr spec0 launch0.win.arr_inj c (V0 m c) (fun w => (dats m 0 c).arrAt w cfg0.N) 1).trans (finalD m c)
  have e2 := (Pipeline.withArrays_arr spec0 launch0.win.arr_inj c (V0 m c) (fun w => (dats m 0 c).arrAt w cfg0.N) 2).trans (finalO m c)
  unfold Pipeline.afterTail₀
  show StableHlo.after hostOps1 _ (Proc.devRef .tc main_v0) = _
  after_results
  refine Eq.trans ?_ (congrArg₂ (tailOf (F := F)) e1 e2)
  rfl

/-! ## The tail on the extended reals -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  exact (Equiv.sum_comp e.symm f).symm

/-- Entry c of the sliced and flattened array is entry (c, 0, 0) of the array. -/
theorem corner_apply {α : Type} (A : S2x8x128.Idx → α) (c : Fin 2) :
    shapeCast S2 (extractStridedSlice S2x1x1 ![0, 0, 0] A slices_S2x8x128_S2x1x1_0_0_0) shapeCasts_S2x1x1_S2 (ix1 c)
      = A (ix3 c (0 : Fin 8) (0 : Fin 128)) := by
  refine (shapeCast_apply _ shapeCasts_S2x1x1_S2 (ix1 c) (ix3 c (0 : Fin 1) (0 : Fin 1)) (by
    rw [Shape.rowMajor_val_three, Shape.rowMajor_val_one]
    show (c.val * 1 + 0) * 1 + 0 = c.val
    omega)).trans ?_
  exact extractStridedSlice_apply _ A slices_S2x8x128_S2x1x1_0_0_0 _ (ix3 c (0 : Fin 8) (0 : Fin 128)) (fun a => by
    match a with
    | ⟨0, _⟩ => show c.val = 0 + c.val; omega
    | ⟨1, _⟩ => rfl
    | ⟨2, _⟩ => rfl)

/-- The sum from zero of the two corner entries. -/
theorem corner_sum (A : FVec Ideal S2x8x128 .f32) :
    Host.reduceAdd (F := Ideal) (shapeCast S2 (extractStridedSlice S2x1x1 ![0, 0, 0] A slices_S2x8x128_S2x1x1_0_0_0) shapeCasts_S2x1x1_S2)
        (constant (F := Ideal) S_ .f32 0x00000000#32) reducesTo_S2_S_d0 h_S_ ix0
      = Ideal.ofBits .f32 0x00000000#32 + ∑ c : Fin 2, A (ix3 c (0 : Fin 8) (0 : Fin 128)) := by
  simp only [Host.reduceAdd, Ideal.hostReduceAdd_def]
  refine (Ideal.hostReduceAdd_total reducesTo_S2_S_d0 (fun b => b.elim0) _ _ ix0).trans ?_
  refine congrArg₂ (fun s t : EReal => s + t) rfl ((sum_idx1 _).trans ?_)
  exact Finset.sum_congr rfl fun c _ => corner_apply A c

/-- The tail at Ideal: the two corner sums, combined. -/
theorem tailOf_apply (A1 A2 : FVec Ideal S2x8x128 .f32) :
    tailOf (F := Ideal) A1 A2 ix0 = combine
      (Ideal.ofBits .f32 0x00000000#32 + ∑ c : Fin 2, A1 (ix3 c (0 : Fin 8) (0 : Fin 128)))
      (Ideal.ofBits .f32 0x00000000#32 + ∑ c : Fin 2, A2 (ix3 c (0 : Fin 8) (0 : Fin 128))) := by
  unfold tailOf combine
  show Ideal.div (_ + Ideal.ofBits .f32 0x3DCCCCCD#32 * _) (Ideal.ofBits .f32 0x42800000#32) = _
  rw [corner_sum, corner_sum]

end Cert.KernelIdeal.Tail

end
-- ==== Proof.KernelRun.lean ====
/-
  The kernel program's run, read: every weakly fair execution ends with the result buffer at the host tail of the two
  output arrays (each the masked splats of its cores' accumulators) and the argument unchanged.
-/
import proofs.«136636_j37520834298331_2_alg».proof.Proof.KernelTail

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Arrays Cert.KernelIdeal.Tail

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ fun r => ∀ c : Dev nD,
      r.2.mem ((c : Thread nD τ).loc main_v0) = tailOf (arrD m c) (arrO m c)
      ∧ r.2.mem ((c : Thread nD τ).loc main_arg0) = m ((c : Thread nD τ).loc main_arg0) :=
  (θ_run defs _ _).mono (fun _ h c =>
    ⟨((h c).2 main_v0 (Pipeline.mem_restRefs_of main_v0 rfl (by decide))).trans (tail_run m c),
      ((h c).1 0).trans (((dats m 0 c).arrAt_in 0 rfl _).trans ((A_eq m c 0).trans (V_main_arg0 m c)))⟩)
    (run_main m ρ)

end Cert.KernelIdeal.Run

end
-- ==== Proof.LibVectorAsColumn.lean ====
/-
  A vector viewed as a one-column matrix, read at an index given by coordinates: an `[a]` array cast to `[a, 1]` (what
  `v.reshape(a, 1)` or `v[:, None]` is, as a shape cast) reads, at `(i, u)`, the vector's entry `i`. The layout library
  has the row form `[a] → [1, a]`; this is the column form, with the row-major arithmetic discharged the same way.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.Payloads.lean ====
/-
  The kernel body's arithmetic read at an index, on the extended reals. For one input block x[b, d, k] (8 batches,
  1024 rows, 64 columns) write  rowSq b d = ∑ k, x b d k ^ 2  and  gram b k l = ∑ d, x b d k * x b d l  (the small
  Gram matrix, which the matrix unit computes; the narrowing to bf16 before it is the identity here). The body adds
    diagTerm = ∑ b, (1024 - 2 * ∑ d, rowSq b d) + ∑ d, rowSq b d ^ 2
    offTerm  = ∑ b, (∑ k l, gram b k l ^ 2) - ∑ d, rowSq b d ^ 2
  to its two accumulators, and at a core's last step writes each accumulator at position (0,0,0) of an output block.
-/
import proofs.«136636_j37520834298331_2_alg».proof.Proof.Gen.KernelIdeal.Skeleton
import proofs.«136636_j37520834298331_2_alg».proof.Proof.LibVectorAsColumn
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Payloads

open Cert.KernelIdeal Cert.KernelIdeal.Gen Idealize.ShloMosaic.ValueIdx

/-- The matrix unit's dimension numbers: batch axis 0, contraction over the rows (axis 1 of both operands). -/
abbrev DK := dot_S8x1024x64_S8x1024x64_S8x64x64_1_1_2_2_0_0

/-- Squared norm of row d of batch b of the block. -/
def rowSq (x : Vec Ideal S8x1024x64 .f32) (b : Fin 8) (d : Fin 1024) : EReal :=
  ∑ k : Fin 64, x (ix3 b d k) * x (ix3 b d k)

/-- Entry (k, l) of the small Gram matrix of batch b of the block. -/
def gram (x : Vec Ideal S8x1024x64 .f32) (b : Fin 8) (k l : Fin 64) : EReal :=
  ∑ d : Fin 1024, x (ix3 b d k) * x (ix3 b d l)

/-- What the block adds to the diagonal accumulator. -/
def diagTerm (x : Vec Ideal S8x1024x64 .f32) : EReal :=
  ∑ b : Fin 8, ((Ideal.ofBits .f32 0x44800000#32 - Ideal.ofBits .f32 0x40000000#32 * ∑ d : Fin 1024, rowSq x b d)
    + ∑ d : Fin 1024, rowSq x b d * rowSq x b d)

/-- What the block adds to the off-diagonal accumulator. -/
def offTerm (x : Vec Ideal S8x1024x64 .f32) : EReal :=
  ∑ b : Fin 8, ((∑ k : Fin 64, ∑ l : Fin 64, gram x b k l * gram x b k l) - ∑ d : Fin 1024, rowSq x b d * rowSq x b d)

/-! ## The indices the reductions read -/

theorem lift_row (b : Fin 8) (d : Fin 1024) (k : Fin 64) :
    reduces_S8x1024x64_S8x1024.lift (ix2 b d) k = ix3 b d k :=
  funext fun a => Fin.ext (by match a with | ⟨0, _⟩ => rfl | ⟨1, _⟩ => rfl | ⟨2, _⟩ => rfl)

theorem lift_rows (b : Fin 8) (d : Fin 1024) : reduces_S8x1024_S8.lift (ix1 b) d = ix2 b d :=
  funext fun a => Fin.ext (by match a with | ⟨0, _⟩ => rfl | ⟨1, _⟩ => rfl)

theorem lift_gram_col (b : Fin 8) (k l : Fin 64) : reduces_S8x64x64_S8x64.lift (ix2 b k) l = ix3 b k l :=
  funext fun a => Fin.ext (by match a with | ⟨0, _⟩ => rfl | ⟨1, _⟩ => rfl | ⟨2, _⟩ => rfl)

theorem lift_gram_row (b : Fin 8) (k : Fin 64) : reduces_S8x64_S8.lift (ix1 b) k = ix2 b k :=
  funext fun a => Fin.ext (by match a with | ⟨0, _⟩ => rfl | ⟨1, _⟩ => rfl)

theorem lift_batch (b : Fin 8) : reduces_S8x1_S1.lift (ix1 (0 : Fin 1)) b = ix2 b (0 : Fin 1) :=
  funext fun a => Fin.ext (by match a with | ⟨0, _⟩ => rfl | ⟨1, _⟩ => rfl)

/-! ## Row norms -/

/-- The lane sum of the squares at (b, d) is the row's squared norm. -/
theorem pay7_apply (x : Vec Ideal S8x1024x64 .f32) (b : Fin 8) (d : Fin 1024) :
    k0_pay7 x (ix2 b d) = rowSq x b d := by
  unfold k0_pay7
  refine (Ideal.multiReduction_add_single (mulf x x) 0x00000000#32 reduces_S8x1024x64_S8x1024 (.inl rfl) rfl (ix2 b d)).trans ?_
  exact Finset.sum_congr rfl fun k _ => congrArg (fun i => x i * x i) (lift_row b d k)

/-- The sum over the rows of the squared row norms, as a column entry. -/
theorem pay8_apply (x : Vec Ideal S8x1024x64 .f32) (b : Fin 8) :
    k0_pay8 x (ix2 b (0 : Fin 1)) = ∑ d : Fin 1024, rowSq x b d * rowSq x b d := by
  unfold k0_pay8
  refine (shapeCast_a_a1_apply _ shapeCasts_S8_S8x1 b 0).trans ?_
  refine (Ideal.multiReduction_add_single (mulf (k0_pay7 x) (k0_pay7 x)) 0x00000000#32 reduces_S8x1024_S8 (.inl rfl) rfl (ix1 b)).trans ?_
  refine Finset.sum_congr rfl fun d _ => ?_
  refine (congrArg (fun i => k0_pay7 x i * k0_pay7 x i) (lift_rows b d)).trans ?_
  exact congrArg₂ (fun s q : EReal => s * q) (pay7_apply x b d) (pay7_apply x b d)

/-- The sum over the rows of the row norms, as a column entry. -/
theorem rowsum_apply (x : Vec Ideal S8x1024x64 .f32) (b : Fin 8) :
    shapeCast S8x1 (multiReduction (F := Ideal) .add [1] S8 (k0_pay7 x) 0x00000000#32 reduces_S8x1024_S8 (.inl rfl) rfl) shapeCasts_S8_S8x1
      (ix2 b (0 : Fin 1)) = ∑ d : Fin 1024, rowSq x b d := by
  refine (shapeCast_a_a1_apply _ shapeCasts_S8_S8x1 b 0).trans ?_
  refine (Ideal.multiReduction_add_single (k0_pay7 x) 0x00000000#32 reduces_S8x1024_S8 (.inl rfl) rfl (ix1 b)).trans ?_
  refine Finset.sum_congr rfl fun d _ => ?_
  refine (congrArg (fun i => k0_pay7 x i) (lift_rows b d)).trans ?_
  exact pay7_apply x b d

/-! ## The diagonal accumulator's update -/

/-- The updated diagonal accumulator is the old one plus the block's diagonal term. -/
theorem pay9_apply (x : Vec Ideal S8x1024x64 .f32) (v : Vec Ideal S1x1 .f32) :
    k0_pay9 x v (ix2 (0 : Fin 1) (0 : Fin 1)) = v (ix2 (0 : Fin 1) (0 : Fin 1)) + diagTerm x := by
  unfold k0_pay9
  refine (congrFun (shapeCast_self _ shapeCasts_S1x1_S1x1) (ix2 (0 : Fin 1) (0 : Fin 1))).trans ?_
  refine congrArg (fun z => v (ix2 (0 : Fin 1) (0 : Fin 1)) + z) ?_
  refine (shapeCast_a_a1_apply _ shapeCasts_S1_S1x1 (0 : Fin 1) (0 : Fin 1)).trans ?_
  refine (Ideal.multiReduction_add_single _ 0x00000000#32 reduces_S8x1_S1 (.inl rfl) rfl (ix1 (0 : Fin 1))).trans ?_
  unfold diagTerm
  refine Finset.sum_congr rfl fun b _ => ?_
  refine (congrArg _ (lift_batch b)).trans ?_
  exact congrArg₂ (fun s q : EReal => (Ideal.ofBits .f32 0x44800000#32 - Ideal.ofBits .f32 0x40000000#32 * s) + q)
    (rowsum_apply x b) (pay8_apply x b)

/-! ## The small Gram matrix -/

theorem lhs_b (i : S8x64x64.Idx) (q : DK.contr.Idx) : (DK.lhsIdx i q 0).val = (i 0).val := by
  unfold DotDims.lhsIdx
  rw [dif_pos (show (0 : Fin S8x1024x64.rank) ∈ DK.lhsBatch by decide)]
  rfl
theorem lhs_d (i : S8x64x64.Idx) (q : DK.contr.Idx) : (DK.lhsIdx i q 1).val = (q ⟨0, by decide⟩).val :=
  DK.lhsIdx_val_of_single rfl i q
theorem lhs_k (i : S8x64x64.Idx) (q : DK.contr.Idx) : (DK.lhsIdx i q 2).val = (i 1).val := by
  unfold DotDims.lhsIdx
  rw [dif_neg (show ¬(2 : Fin S8x1024x64.rank) ∈ DK.lhsBatch by decide), dif_pos (show (2 : Fin S8x1024x64.rank) ∈ DK.lhsNonContracting by decide)]
  rfl
theorem rhs_b (i : S8x64x64.Idx) (q : DK.contr.Idx) : (DK.rhsIdx i q 0).val = (i 0).val := by
  unfold DotDims.rhsIdx
  rw [dif_pos (show (0 : Fin S8x1024x64.rank) ∈ DK.rhsBatch by decide)]
  rfl
theorem rhs_d (i : S8x64x64.Idx) (q : DK.contr.Idx) : (DK.rhsIdx i q 1).val = (q ⟨0, by decide⟩).val :=
  DK.rhsIdx_val_of_single rfl i q
theorem rhs_l (i : S8x64x64.Idx) (q : DK.contr.Idx) : (DK.rhsIdx i q 2).val = (i 2).val := by
  unfold DotDims.rhsIdx
  rw [dif_neg (show ¬(2 : Fin S8x1024x64.rank) ∈ DK.rhsBatch by decide), dif_pos (show (2 : Fin S8x1024x64.rank) ∈ DK.rhsNonContracting by decide)]
  rfl

/-- The matrix product into the zero accumulator at (b, k, l) is the small Gram matrix's entry. -/
theorem gram_apply (x : Vec Ideal S8x1024x64 .f32) (b : Fin 8) (k l : Fin 64) :
    matmul (F := Ideal) DK none (truncf (F := Ideal) .bf16 x bitsLt_bf16_f32) (truncf (F := Ideal) .bf16 x bitsLt_bf16_f32) (constant (F := Ideal) S8x64x64 .f32 0x00000000#32)
      (ix3 b k l) = gram x b k l := by
  simp only [matmul]
  rw [Ideal.matmul_constant_zero_apply, ← Equiv.sum_comp (contrEquiv1 DK 1024 rfl rfl).symm]
  refine Finset.sum_congr rfl fun d _ => ?_
  have hk := contrEquiv1_symm_val DK 1024 rfl rfl d
  have el : DK.lhsIdx (ix3 b k l) ((contrEquiv1 DK 1024 rfl rfl).symm d) = ix3 b d k := funext fun a => Fin.ext (by
    match a with
    | ⟨0, _⟩ => exact lhs_b _ _
    | ⟨1, _⟩ => exact (lhs_d _ _).trans hk
    | ⟨2, _⟩ => exact lhs_k _ _)
  have er : DK.rhsIdx (ix3 b k l) ((contrEquiv1 DK 1024 rfl rfl).symm d) = ix3 b d l := funext fun a => Fin.ext (by
    match a with
    | ⟨0, _⟩ => exact rhs_b _ _
    | ⟨1, _⟩ => exact (rhs_d _ _).trans hk
    | ⟨2, _⟩ => exact rhs_l _ _)
  rw [el, er]
  rfl

/-- The squared Frobenius norm of the small Gram matrix of batch b, as a column entry. -/
theorem frob_apply (x : Vec Ideal S8x1024x64 .f32) (b : Fin 8) :
    shapeCast S8x1 (multiReduction (F := Ideal) .add [1] S8 (multiReduction (F := Ideal) .add [2] S8x64
        (mulf (F := Ideal) (matmul (F := Ideal) DK none (truncf (F := Ideal) .bf16 x bitsLt_bf16_f32) (truncf (F := Ideal) .bf16 x bitsLt_bf16_f32) (constant (F := Ideal) S8x64x64 .f32 0x00000000#32))
          (matmul (F := Ideal) DK none (truncf (F := Ideal) .bf16 x bitsLt_bf16_f32) (truncf (F := Ideal) .bf16 x bitsLt_bf16_f32) (constant (F := Ideal) S8x64x64 .f32 0x00000000#32)))
        0x00000000#32 reduces_S8x64x64_S8x64 (.inl rfl) rfl) 0x00000000#32 reduces_S8x64_S8 (.inl rfl) rfl) shapeCasts_S8_S8x1
      (ix2 b (0 : Fin 1)) = ∑ k : Fin 64, ∑ l : Fin 64, gram x b k l * gram x b k l := by
  refine (shapeCast_a_a1_apply _ shapeCasts_S8_S8x1 b 0).trans ?_
  refine (Ideal.multiReduction_add_single _ 0x00000000#32 reduces_S8x64_S8 (.inl rfl) rfl (ix1 b)).trans ?_
  refine Finset.sum_congr rfl fun k _ => ?_
  refine (congrArg _ (lift_gram_row b k)).trans ?_
  refine (Ideal.multiReduction_add_single _ 0x00000000#32 reduces_S8x64x64_S8x64 (.inl rfl) rfl (ix2 b k)).trans ?_
  refine Finset.sum_congr rfl fun l _ => ?_
  refine (congrArg _ (lift_gram_col b k l)).trans ?_
  exact congrArg₂ (fun s q : EReal => s * q) (gram_apply x b k l) (gram_apply x b k l)

/-! ## The off-diagonal accumulator's update -/

/-- The updated off-diagonal accumulator is the old one plus the block's off-diagonal term. -/
theorem pay10_apply (x : Vec Ideal S8x1024x64 .f32) (v : Vec Ideal S1x1 .f32) :
    k0_pay1 (k0_pay10 x v) (ix2 (0 : Fin 1) (0 : Fin 1)) = v (ix2 (0 : Fin 1) (0 : Fin 1)) + offTerm x := by
  unfold k0_pay1
  refine (congrFun (shapeCast_self _ shapeCasts_S1x1_S1x1) (ix2 (0 : Fin 1) (0 : Fin 1))).trans ?_
  unfold k0_pay10
  refine congrArg (fun z => v (ix2 (0 : Fin 1) (0 : Fin 1)) + z) ?_
  refine (shapeCast_a_a1_apply _ shapeCasts_S1_S1x1 (0 : Fin 1) (0 : Fin 1)).trans ?_
  refine (Ideal.multiReduction_add_single _ 0x00000000#32 reduces_S8x1_S1 (.inl rfl) rfl (ix1 (0 : Fin 1))).trans ?_
  unfold offTerm
  refine Finset.sum_congr rfl fun b _ => ?_
  refine (congrArg _ (lift_batch b)).trans ?_
  exact congrArg₂ (fun s q : EReal => s - q) (frob_apply x b) (pay8_apply x b)

/-! ## The zero the accumulators start from, and the masked splat -/

theorem pay5_apply : k0_pay5 (F := Ideal) (ix2 (0 : Fin 1) (0 : Fin 1)) = Ideal.ofBits .f32 0x00000000#32 := by
  unfold k0_pay5
  exact congrFun (shapeCast_self _ shapeCasts_S1x1_S1x1) _

theorem pay6_apply : k0_pay6 (F := Ideal) (ix2 (0 : Fin 1) (0 : Fin 1)) = Ideal.ofBits .f32 0x00000000#32 := by
  unfold k0_pay6
  exact congrFun (shapeCast_self _ shapeCasts_S1x1_S1x1) _

/-- The mask is set at position (0, 0, 0). -/
theorem mask_origin : k0_pay2 (ix3 (0 : Fin 1) (0 : Fin 8) (0 : Fin 128)) = 1#1 := by
  unfold k0_pay2
  show IntOp.andi (IntOp.cmpi .eq (iota .tc S1x8x128 32 [1] iota_S1x8x128_d1_w32 (ix3 (0 : Fin 1) (0 : Fin 8) (0 : Fin 128))) 0#32)
    (IntOp.cmpi .eq (iota .tc S1x8x128 32 [2] iota_S1x8x128_d2_w32 (ix3 (0 : Fin 1) (0 : Fin 8) (0 : Fin 128))) 0#32) = 1#1
  rw [iota_single_apply, iota_single_apply]
  rfl

theorem extract_origin {F : FTy → Type} [FloatOps F] (v : Vec F S1x1 .f32) :
    extractAt ![0, 0] v inpos_S1x1_p0_0 = v (ix2 (0 : Fin 1) (0 : Fin 1)) := by
  unfold extractAt
  exact congrArg v (funext fun a => Fin.ext (by match a with | ⟨0, _⟩ => rfl | ⟨1, _⟩ => rfl))

/-- The first output block at (0, 0, 0) is the accumulator's word. -/
theorem pay3_apply {F : FTy → Type} [FloatOps F] (v : Vec F S1x1 .f32) :
    k0_pay3 v (ix3 (0 : Fin 1) (0 : Fin 8) (0 : Fin 128)) = v (ix2 (0 : Fin 1) (0 : Fin 1)) := by
  unfold k0_pay3
  show Scalar.select (k0_pay2 (ix3 (0 : Fin 1) (0 : Fin 8) (0 : Fin 128))) (extractAt ![0, 0] v inpos_S1x1_p0_0) _ = _
  rw [mask_origin, select_one, extract_origin]

/-- The second output block at (0, 0, 0) is the accumulator's word. -/
theorem pay4_apply {F : FTy → Type} [FloatOps F] (v : Vec F S1x1 .f32) :
    k0_pay4 v (ix3 (0 : Fin 1) (0 : Fin 8) (0 : Fin 128)) = v (ix2 (0 : Fin 1) (0 : Fin 1)) := by
  unfold k0_pay4
  show Scalar.select (k0_pay2 (ix3 (0 : Fin 1) (0 : Fin 8) (0 : Fin 128))) (extractAt ![0, 0] v inpos_S1x1_p0_0) _ = _
  rw [mask_origin, select_one, extract_origin]

end Cert.KernelIdeal.Payloads

end
-- ==== Proof.GramLaw.lean ====
/-
  The algebraic law that joins the two programs: for a real matrix X with rows i and columns k, the squared
  Frobenius norm of the big Gram matrix X Xᵀ equals that of the small Gram matrix Xᵀ X:
    ∑ i j, (∑ k, X i k * X j k)^2 = ∑ k l, (∑ i, X i k * X i l)^2.
-/
import Idealize.ShloMosaic.PureOps.Ideal

namespace GramLaw

open Finset

/-- Both sides expand to the fourfold sum of X i k * X j k * X i l * X j l. -/
theorem frob_gram {ι κ : Type*} [Fintype ι] [Fintype κ] (X : ι → κ → ℝ) :
    ∑ i, ∑ j, (∑ k, X i k * X j k) * (∑ k, X i k * X j k)
      = ∑ k, ∑ l, (∑ i, X i k * X i l) * (∑ i, X i k * X i l) := by
  have hL : ∀ i j, (∑ k, X i k * X j k) * (∑ k, X i k * X j k)
      = ∑ k, ∑ l, (X i k * X i l) * (X j k * X j l) := by
    intro i j
    rw [Finset.sum_mul_sum]
    refine Finset.sum_congr rfl fun k _ => Finset.sum_congr rfl fun l _ => by ring
  have hR : ∀ k l, (∑ i, X i k * X i l) * (∑ i, X i k * X i l)
      = ∑ i, ∑ j, (X i k * X i l) * (X j k * X j l) := by
    intro k l
    rw [Finset.sum_mul_sum]
  simp_rw [hL, hR]
  calc ∑ i, ∑ j, ∑ k, ∑ l, (X i k * X i l) * (X j k * X j l)
      = ∑ i, ∑ k, ∑ j, ∑ l, (X i k * X i l) * (X j k * X j l) := by
        refine Finset.sum_congr rfl fun i _ => Finset.sum_comm
    _ = ∑ k, ∑ i, ∑ j, ∑ l, (X i k * X i l) * (X j k * X j l) := Finset.sum_comm
    _ = ∑ k, ∑ i, ∑ l, ∑ j, (X i k * X i l) * (X j k * X j l) := by
        refine Finset.sum_congr rfl fun k _ => Finset.sum_congr rfl fun i _ => Finset.sum_comm
    _ = ∑ k, ∑ l, ∑ i, ∑ j, (X i k * X i l) * (X j k * X j l) := by
        refine Finset.sum_congr rfl fun k _ => Finset.sum_comm

end GramLaw
-- ==== Proof.RealSide.lean ====
/-
  The two programs over the reals. For a real array X[B, d, k] (64 batches, 1024 rows, 64 columns) write
    n B d   = ∑ k, X B d k ^ 2                  (squared norm of row d: the diagonal of the big Gram matrix)
    M B p q = ∑ k, X B p k * X B q k            (the big Gram matrix X Xᵀ)
    G B k l = ∑ d, X B d k * X B d l            (the small Gram matrix Xᵀ X).
  One side sums, batch by batch, 1024 - 2 ∑ n + ∑ n² and ‖G‖² - ∑ n², eight batches to a block, four blocks to
  a core, two cores; the other sums 1 - 2 n + n² over all (B, d) and ‖M‖² - ∑ n² over everything. They agree
  because a sum over 64 batches is the sum over 2·4 blocks of 8, and ‖X Xᵀ‖² = ‖Xᵀ X‖² (GramLaw.frob_gram).
-/
import Idealize.ShloMosaic.PureOps.Ideal
import proofs.«136636_j37520834298331_2_alg».proof.Proof.GramLaw

namespace RealSide

open Finset

/-- Batch 8t + b: batch b of block t. -/
def row (t : Fin 8) (b : Fin 8) : Fin 64 := ⟨8 * t.val + b.val, by omega⟩
/-- Block 4c + i: step i of core c. -/
def pt (c : Fin 2) (i : Fin 4) : Fin 8 := ⟨4 * c.val + i.val, by omega⟩

def rowEquiv : Fin 8 × Fin 8 ≃ Fin 64 where
  toFun p := row p.1 p.2
  invFun B := (⟨B.val / 8, by omega⟩, ⟨B.val % 8, by omega⟩)
  left_inv := by
    rintro ⟨t, b⟩
    refine Prod.ext (Fin.ext ?_) (Fin.ext ?_)
    · show (8 * t.val + b.val) / 8 = t.val
      omega
    · show (8 * t.val + b.val) % 8 = b.val
      omega
  right_inv := by
    intro B
    refine Fin.ext ?_
    show 8 * (B.val / 8) + B.val % 8 = B.val
    omega

def ptEquiv : Fin 2 × Fin 4 ≃ Fin 8 where
  toFun p := pt p.1 p.2
  invFun t := (⟨t.val / 4, by omega⟩, ⟨t.val % 4, by omega⟩)
  left_inv := by
    rintro ⟨c, i⟩
    refine Prod.ext (Fin.ext ?_) (Fin.ext ?_)
    · show (4 * c.val + i.val) / 4 = c.val
      omega
    · show (4 * c.val + i.val) % 4 = i.val
      omega
  right_inv := by
    intro t
    refine Fin.ext ?_
    show 4 * (t.val / 4) + t.val % 4 = t.val
    omega

/-- A sum over the 64 batches is the sum over the 8 blocks of the 8 batches of each. -/
theorem sum_rows {M : Type*} [AddCommMonoid M] (f : Fin 64 → M) : ∑ B, f B = ∑ t, ∑ b, f (row t b) := by
  rw [← Fintype.sum_prod_type' (f := fun t b => f (row t b))]
  exact (Fintype.sum_equiv rowEquiv _ _ (fun _ => rfl)).symm

/-- A sum over the 8 blocks is the sum over the 2 cores of the 4 steps of each. -/
theorem sum_pts {M : Type*} [AddCommMonoid M] (f : Fin 8 → M) : ∑ t, f t = ∑ c, ∑ i, f (pt c i) := by
  rw [← Fintype.sum_prod_type' (f := fun c i => f (pt c i))]
  exact (Fintype.sum_equiv ptEquiv _ _ (fun _ => rfl)).symm

variable (X : Fin 64 → Fin 1024 → Fin 64 → ℝ)

def n (B : Fin 64) (d : Fin 1024) : ℝ := ∑ k, X B d k * X B d k
def M (B : Fin 64) (p q : Fin 1024) : ℝ := ∑ k, X B p k * X B q k
def G (B : Fin 64) (k l : Fin 64) : ℝ := ∑ d, X B d k * X B d l

/-- One batch's diagonal term and off-diagonal term, as the blocked side computes them. -/
def diagB (B : Fin 64) : ℝ := (1024 - 2 * ∑ d, n X B d) + ∑ d, n X B d * n X B d
def offB (B : Fin 64) : ℝ := (∑ k, ∑ l, G X B k l * G X B k l) - ∑ d, n X B d * n X B d

/-- One block's terms: the sum over its eight batches. -/
def diagT (t : Fin 8) : ℝ := ∑ b, diagB X (row t b)
def offT (t : Fin 8) : ℝ := ∑ b, offB X (row t b)

/-- A core's accumulator after its four steps, started from zero. -/
def acc (f : Fin 8 → ℝ) (c : Fin 2) : ℝ := (((0 + f (pt c 0)) + f (pt c 1)) + f (pt c 2)) + f (pt c 3)

theorem sum_acc (f : Fin 8 → ℝ) : ∑ c, acc f c = ∑ t, f t := by
  rw [sum_pts]
  refine Finset.sum_congr rfl fun c _ => ?_
  rw [Fin.sum_univ_four]
  unfold acc
  ring

/-- The diagonal parts agree. -/
theorem diag_eq : 0 + ∑ c, acc (diagT X) c = 0 + ∑ B, ∑ d, ((1 - 2 * n X B d) + n X B d * n X B d) := by
  rw [sum_acc, sum_rows (fun B => ∑ d, ((1 - 2 * n X B d) + n X B d * n X B d))]
  congr 1
  refine Finset.sum_congr rfl fun t _ => Finset.sum_congr rfl fun b _ => ?_
  unfold diagB
  rw [Finset.sum_add_distrib, Finset.sum_sub_distrib, Finset.mul_sum]
  simp

/-- The off-diagonal parts agree. -/
theorem off_eq : 0 + ∑ c, acc (offT X) c
    = (0 + ∑ B, ∑ p, ∑ q, M X B p q * M X B p q) - (0 + ∑ B, ∑ d, n X B d * n X B d) := by
  rw [sum_acc, sum_rows (fun B => ∑ p, ∑ q, M X B p q * M X B p q), sum_rows (fun B => ∑ d, n X B d * n X B d)]
  simp only [zero_add]
  rw [← Finset.sum_sub_distrib]
  refine Finset.sum_congr rfl fun t _ => ?_
  rw [← Finset.sum_sub_distrib]
  refine Finset.sum_congr rfl fun b _ => ?_
  unfold offB
  congr 1
  exact (GramLaw.frob_gram (X (row t b))).symm

end RealSide
-- ==== Proof.KernelValue.lean ====
/-
  The kernel's result on the extended reals when every input entry is a real number X[B, d, k]. Block t of the input is
  batches 8t … 8t + 7; its diagonal and off-diagonal terms are the real ones of RealSide; a core's accumulators after
  its four steps are the running sums started from zero; the output arrays' corners hold them; and the host lines
  after the kernel combine the two corner sums.
-/
import proofs.«136636_j37520834298331_2_alg».proof.Proof.KernelTail
import proofs.«136636_j37520834298331_2_alg».proof.Proof.Payloads
import proofs.«136636_j37520834298331_2_alg».proof.Proof.RealSide
import proofs.«136636_j37520834298331_2_alg».proof.Proof.Consts

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Chain Cert.KernelIdeal.Arrays Cert.KernelIdeal.Tail
open Cert.KernelIdeal.Payloads Idealize.ShloMosaic.ValueIdx
open Cert.Consts (combine coe_sum)
open RealSide (row pt)

/-! ## The chain's two equations, for any float instance -/

section AnyF
variable {F : FTy → Type} [FloatOps F]
variable (m : (ℓ : Loc nD τ sig) → Buf (Elt F) ℓ)

/-- At a core's first step the accumulators restart from zero. -/
theorem acc_first (c : Dev nD) (n : ℕ) (h : n < cfg0.N) (hn : n % 4 = 0) :
    acc m c n h = (k0_pay9 (iblk m c 0 ⟨n, h⟩) (k0_pay5 (F := F)), k0_pay1 (k0_pay10 (iblk m c 0 ⟨n, h⟩) (k0_pay6 (F := F)))) := by
  cases n with
  | zero => rfl
  | succ n => rw [acc]; exact if_pos hn

/-- At a later step they continue from the step before. -/
theorem acc_next (c : Dev nD) (n : ℕ) (h : n + 1 < cfg0.N) (hn : ¬(n + 1) % 4 = 0) :
    acc m c (n + 1) h = (k0_pay9 (iblk m c 0 ⟨n + 1, h⟩) (acc m c n (Nat.lt_of_succ_lt h)).1,
      k0_pay1 (k0_pay10 (iblk m c 0 ⟨n + 1, h⟩) (acc m c n (Nat.lt_of_succ_lt h)).2)) := by
  rw [acc]; exact if_neg hn

end AnyF

variable (m : (ℓ : Loc nD τ sig) → Buf (Elt Ideal) ℓ)

/-- The input array on core c. -/
abbrev Xof (c : Dev nD) : S64x1024x64.Idx → EReal := m ((c : Thread nD τ).loc main_arg0)

theorem N8 : cfg0.N = 8 := N_0

/-- A grid point as a number below 8. -/
def pt8 (t : Fin cfg0.N) : Fin 8 := ⟨t.val, lt_of_lt_of_eq t.isLt N8⟩

/-- Block t of the input window is batches 8t … 8t + 7 of the array. -/
theorem iblk_apply (c : Dev nD) (t : Fin cfg0.N) (b : Fin 8) (d : Fin 1024) (k : Fin 64) :
    (iblk m c 0 t : Vec Ideal S8x1024x64 .f32) (ix3 b d k) = Xof m c (ix3 (row (pt8 t) b) d k) := by
  have hi : win0_0.index t 0 = t.val ∧ win0_0.index t 1 = 0 ∧ win0_0.index t 2 = 0 := by
    rcases fin_N0 t with rfl | rfl | rfl | rfl | rfl | rfl | rfl | rfl <;> decide +kernel
  unfold iblk
  rw [View.read_apply]
  show m (c.tc.loc main_arg0) _ = m (c.tc.loc main_arg0) _
  refine congrArg _ (funext fun a => Fin.ext ?_)
  match a with
  | ⟨0, _⟩ => show win0_0.index t 0 * 8 + 1 * b.val = 8 * t.val + b.val; rw [hi.1]; omega
  | ⟨1, _⟩ => show win0_0.index t 1 * 1024 + 1 * d.val = d.val; rw [hi.2.1]; omega
  | ⟨2, _⟩ => show win0_0.index t 2 * 64 + 1 * k.val = k.val; rw [hi.2.2]; omega

/-! ## The accumulators' words -/

/-- The diagonal accumulator's word after point n. -/
def dAt (c : Dev nD) (n : ℕ) (h : n < cfg0.N) : EReal := (acc m c n h).1 (ix2 (0 : Fin 1) (0 : Fin 1))
/-- The off-diagonal accumulator's word after point n. -/
def oAt (c : Dev nD) (n : ℕ) (h : n < cfg0.N) : EReal := (acc m c n h).2 (ix2 (0 : Fin 1) (0 : Fin 1))

theorem dAt_first (c : Dev nD) (n : ℕ) (h : n < cfg0.N) (hn : n % 4 = 0) :
    dAt m c n h = Ideal.ofBits .f32 0x00000000#32 + diagTerm (iblk m c 0 ⟨n, h⟩) := by
  unfold dAt
  rw [acc_first m c n h hn]
  exact (pay9_apply _ _).trans (congrArg (fun z : EReal => z + diagTerm (iblk m c 0 ⟨n, h⟩)) pay5_apply)

theorem dAt_next (c : Dev nD) (n : ℕ) (h : n + 1 < cfg0.N) (hn : ¬(n + 1) % 4 = 0) :
    dAt m c (n + 1) h = dAt m c n (Nat.lt_of_succ_lt h) + diagTerm (iblk m c 0 ⟨n + 1, h⟩) := by
  unfold dAt
  rw [acc_next m c n h hn]
  exact pay9_apply _ _

theorem oAt_first (c : Dev nD) (n : ℕ) (h : n < cfg0.N) (hn : n % 4 = 0) :
    oAt m c n h = Ideal.ofBits .f32 0x00000000#32 + offTerm (iblk m c 0 ⟨n, h⟩) := by
  unfold oAt
  rw [acc_first m c n h hn]
  exact (pay10_apply _ _).trans (congrArg (fun z : EReal => z + offTerm (iblk m c 0 ⟨n, h⟩)) pay6_apply)

theorem oAt_next (c : Dev nD) (n : ℕ) (h : n + 1 < cfg0.N) (hn : ¬(n + 1) % 4 = 0) :
    oAt m c (n + 1) h = oAt m c n (Nat.lt_of_succ_lt h) + offTerm (iblk m c 0 ⟨n + 1, h⟩) := by
  unfold oAt
  rw [acc_next m c n h hn]
  exact pay10_apply _ _

/-- A core's four steps: the diagonal accumulator ends at the running sum from zero. -/
theorem dAt_run (c : Dev nD) (n0 : ℕ) (h3 : n0 + 3 < cfg0.N) (h0 : n0 % 4 = 0) :
    dAt m c (n0 + 3) h3 = (((Ideal.ofBits .f32 0x00000000#32 + diagTerm (iblk m c 0 ⟨n0, by omega⟩))
      + diagTerm (iblk m c 0 ⟨n0 + 1, by omega⟩)) + diagTerm (iblk m c 0 ⟨n0 + 2, by omega⟩)) + diagTerm (iblk m c 0 ⟨n0 + 3, h3⟩) := by
  rw [dAt_next m c (n0 + 2) h3 (by omega), dAt_next m c (n0 + 1) (by omega) (by omega), dAt_next m c n0 (by omega) (by omega),
    dAt_first m c n0 (by omega) h0]

/-- A core's four steps: the off-diagonal accumulator ends at the running sum from zero. -/
theorem oAt_run (c : Dev nD) (n0 : ℕ) (h3 : n0 + 3 < cfg0.N) (h0 : n0 % 4 = 0) :
    oAt m c (n0 + 3) h3 = (((Ideal.ofBits .f32 0x00000000#32 + offTerm (iblk m c 0 ⟨n0, by omega⟩))
      + offTerm (iblk m c 0 ⟨n0 + 1, by omega⟩)) + offTerm (iblk m c 0 ⟨n0 + 2, by omega⟩)) + offTerm (iblk m c 0 ⟨n0 + 3, h3⟩) := by
  rw [oAt_next m c (n0 + 2) h3 (by omega), oAt_next m c (n0 + 1) (by omega) (by omega), oAt_next m c n0 (by omega) (by omega),
    oAt_first m c n0 (by omega) h0]

/-! ## With real inputs -/

section Real
variable (c : Dev nD) (Xr : Fin 64 → Fin 1024 → Fin 64 → ℝ)
variable (hXr : ∀ B d k, Xof m c (ix3 B d k) = ((Xr B d k : ℝ) : EReal))
include hXr

theorem rowSq_coe (t : Fin cfg0.N) (b : Fin 8) (d : Fin 1024) :
    rowSq (iblk m c 0 t) b d = ((RealSide.n Xr (row (pt8 t) b) d : ℝ) : EReal) := by
  unfold rowSq RealSide.n
  rw [coe_sum]
  refine Finset.sum_congr rfl fun k _ => ?_
  rw [iblk_apply, hXr, EReal.coe_mul]

theorem gram_coe (t : Fin cfg0.N) (b : Fin 8) (k l : Fin 64) :
    gram (iblk m c 0 t) b k l = ((RealSide.G Xr (row (pt8 t) b) k l : ℝ) : EReal) := by
  unfold gram RealSide.G
  rw [coe_sum]
  refine Finset.sum_congr rfl fun d _ => ?_
  rw [iblk_apply, iblk_apply, hXr, hXr, EReal.coe_mul]

theorem diagTerm_coe (t : Fin cfg0.N) : diagTerm (iblk m c 0 t) = ((RealSide.diagT Xr (pt8 t) : ℝ) : EReal) := by
  unfold diagTerm RealSide.diagT
  rw [coe_sum]
  refine Finset.sum_congr rfl fun b _ => ?_
  unfold RealSide.diagB
  simp only [rowSq_coe m c Xr hXr, Cert.Consts.ofBits_1024, Cert.Consts.ofBits_two, EReal.coe_add, EReal.coe_sub, EReal.coe_mul, coe_sum]

theorem offTerm_coe (t : Fin cfg0.N) : offTerm (iblk m c 0 t) = ((RealSide.offT Xr (pt8 t) : ℝ) : EReal) := by
  unfold offTerm RealSide.offT
  rw [coe_sum]
  refine Finset.sum_congr rfl fun b _ => ?_
  unfold RealSide.offB
  simp only [rowSq_coe m c Xr hXr, gram_coe m c Xr hXr, EReal.coe_add, EReal.coe_sub, EReal.coe_mul, coe_sum]

/-- Core cc's diagonal accumulator after its last step is the real running sum. -/
theorem dAt_coe (cc : Fin 2) (h3 : 4 * cc.val + 3 < cfg0.N) :
    dAt m c (4 * cc.val + 3) h3 = ((RealSide.acc (RealSide.diagT Xr) cc : ℝ) : EReal) := by
  rw [dAt_run m c (4 * cc.val) h3 (by omega), diagTerm_coe m c Xr hXr, diagTerm_coe m c Xr hXr, diagTerm_coe m c Xr hXr,
    diagTerm_coe m c Xr hXr, Cert.Consts.ofBits_zero]
  unfold RealSide.acc
  simp only [EReal.coe_add]
  rfl

/-- Core cc's off-diagonal accumulator after its last step is the real running sum. -/
theorem oAt_coe (cc : Fin 2) (h3 : 4 * cc.val + 3 < cfg0.N) :
    oAt m c (4 * cc.val + 3) h3 = ((RealSide.acc (RealSide.offT Xr) cc : ℝ) : EReal) := by
  rw [oAt_run m c (4 * cc.val) h3 (by omega), offTerm_coe m c Xr hXr, offTerm_coe m c Xr hXr, offTerm_coe m c Xr hXr,
    offTerm_coe m c Xr hXr, Cert.Consts.ofBits_zero]
  unfold RealSide.acc
  simp only [EReal.coe_add]
  rfl

omit hXr in
theorem inBlock_corner (cc : Fin 2) :
    inBlock (ix3 cc (0 : Fin 8) (0 : Fin 128)) = ix3 (0 : Fin 1) (0 : Fin 8) (0 : Fin 128) :=
  funext fun a => Fin.ext (by match a with | ⟨0, _⟩ => rfl | ⟨1, _⟩ => rfl | ⟨2, _⟩ => rfl)

omit hXr in
/-- The first output array's corner of core 0 and of core 1. -/
theorem arrD_corner0 : arrD m c (ix3 (0 : Fin 2) (0 : Fin 8) (0 : Fin 128)) = dAt m c 3 lt3 := by
  unfold arrD dAt
  refine (if_pos (show (((ix3 (0 : Fin 2) (0 : Fin 8) (0 : Fin 128)) 0 : Fin 2) : Nat) = 0 from rfl)).trans ?_
  exact (congrArg _ (inBlock_corner 0)).trans (pay3_apply _)

omit hXr in
theorem arrD_corner1 : arrD m c (ix3 (1 : Fin 2) (0 : Fin 8) (0 : Fin 128)) = dAt m c 7 lt7 := by
  unfold arrD dAt
  refine (if_neg (show ¬(((ix3 (1 : Fin 2) (0 : Fin 8) (0 : Fin 128)) 0 : Fin 2) : Nat) = 0 from by decide)).trans ?_
  exact (congrArg _ (inBlock_corner 1)).trans (pay3_apply _)

omit hXr in
/-- The second output array's corner of core 0 and of core 1. -/
theorem arrO_corner0 : arrO m c (ix3 (0 : Fin 2) (0 : Fin 8) (0 : Fin 128)) = oAt m c 3 lt3 := by
  unfold arrO oAt
  refine (if_pos (show (((ix3 (0 : Fin 2) (0 : Fin 8) (0 : Fin 128)) 0 : Fin 2) : Nat) = 0 from rfl)).trans ?_
  exact (congrArg _ (inBlock_corner 0)).trans (pay4_apply _)

omit hXr in
theorem arrO_corner1 : arrO m c (ix3 (1 : Fin 2) (0 : Fin 8) (0 : Fin 128)) = oAt m c 7 lt7 := by
  unfold arrO oAt
  refine (if_neg (show ¬(((ix3 (1 : Fin 2) (0 : Fin 8) (0 : Fin 128)) 0 : Fin 2) : Nat) = 0 from by decide)).trans ?_
  exact (congrArg _ (inBlock_corner 1)).trans (pay4_apply _)

/-- The kernel's result: the two real sums, combined. -/
theorem result_coe :
    tailOf (F := Ideal) (arrD m c) (arrO m c) ix0 = combine
      (((0 + ∑ cc : Fin 2, RealSide.acc (RealSide.diagT Xr) cc : ℝ)) : EReal)
      (((0 + ∑ cc : Fin 2, RealSide.acc (RealSide.offT Xr) cc : ℝ)) : EReal) := by
  rw [tailOf_apply, Fin.sum_univ_two, Fin.sum_univ_two, arrD_corner0, arrD_corner1, arrO_corner0, arrO_corner1]
  rw [show dAt m c 3 lt3 = dAt m c (4 * (0 : Fin 2).val + 3) lt3 from rfl, show dAt m c 7 lt7 = dAt m c (4 * (1 : Fin 2).val + 3) lt7 from rfl,
    show oAt m c 3 lt3 = oAt m c (4 * (0 : Fin 2).val + 3) lt3 from rfl, show oAt m c 7 lt7 = oAt m c (4 * (1 : Fin 2).val + 3) lt7 from rfl,
    dAt_coe m c Xr hXr, dAt_coe m c Xr hXr, oAt_coe m c Xr hXr, oAt_coe m c Xr hXr, Cert.Consts.ofBits_zero]
  simp only [Fin.sum_univ_two, EReal.coe_add]

end Real

end Cert.KernelIdeal.Value

end
-- ==== Proof.RefDiag.lean ====
/-
  The reference's diagonal. It forms the big Gram matrix m[b, i, j] = ∑ k, x b i k * x b j k and takes its diagonal by
  a gather whose start indices are (i, i) for i = 0 … 1023 (an iota, wrapped by "add 1024 when negative", which never
  fires, and joined with itself along a new last axis). Read at (b, i) the gather is m[b, i, i].
-/
import proofs.«136636_j37520834298331_2_alg».proof.Proof.Gen.ReferenceIdeal.Read
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.ReferenceIdeal.RefDiag

open Cert.ReferenceIdeal Cert.ReferenceIdeal.Gen Cert.ReferenceIdeal.Read Idealize.ShloMosaic.ValueIdx

variable {F : FTy → Type} [FloatOps F]

/-- The gather's dimension numbers: the batch axis is kept whole, the two matrix axes are collapsed and indexed. -/
abbrev GD := gather_S64x1024x1024_S1024x2_S64x1024_0_12_n_n_12_1_6411

/-! ## The start indices -/

theorem toNat_word (n : ℕ) (hn : n < 1024) : (BitVec.ofNat 32 n).toNat = n := by
  rw [BitVec.toNat_ofNat]; exact Nat.mod_eq_of_lt (by omega)

theorem toInt_word (n : ℕ) (hn : n < 1024) : (BitVec.ofNat 32 n).toInt = (n : Int) := by
  rw [BitVec.toInt_eq_toNat_of_lt (by rw [toNat_word n hn]; omega), toNat_word n hn]

/-- A small natural number as a 32-bit word is not negative, so the wrap leaves it alone. -/
theorem wrap_word (n : ℕ) (hn : n < 1024) :
    Scalar.select (IntOp.cmpi .slt (BitVec.ofNat 32 n) 0#32) (IntOp.addi (BitVec.ofNat 32 n) 1024#32) (BitVec.ofNat 32 n)
      = BitVec.ofNat 32 n := by
  have h : (BitVec.ofNat 32 n).slt 0#32 = false := by
    unfold BitVec.slt
    rw [toInt_word n hn]
    simp
  unfold IntOp.cmpi
  simp only [h]
  exact select_zero _ _

/-- The first wrapped iota at i is the word of i. -/
theorem wrapped0 (i : Fin 1024) : val_main_call0_v6 (F := F) (ix1 i) = BitVec.ofNat 32 i.val := by
  rw [val_main_call0_v6_apply, val_main_call0_v3_apply, val_main_call0_v5_apply, val_main_call0_v0_apply, val_main_call0_v2_apply,
    val_main_call0_v4_apply, val_main_call0_c_apply, val_main_call0_c_0_apply]
  exact wrap_word i.val i.isLt

/-- The second wrapped iota at i is the word of i. -/
theorem wrapped1 (i : Fin 1024) : val_main_call0_v11 (F := F) (ix1 i) = BitVec.ofNat 32 i.val := by
  rw [val_main_call0_v11_apply, val_main_call0_v8_apply, val_main_call0_v10_apply, val_main_call0_v1_apply, val_main_call0_v7_apply,
    val_main_call0_v9_apply, val_main_call0_c_1_apply, val_main_call0_c_2_apply]
  exact wrap_word i.val i.isLt

/-- Column 0 of the start indices at row i is the word of i. -/
theorem start0 (i : Fin 1024) : val_main_call0_v14 (F := F) (ix2 i (0 : Fin 2)) = BitVec.ofNat 32 i.val := by
  unfold val_main_call0_v14
  refine (concatenate_pair_apply_left (t := S1024x2) (s₁ := S1024x1) (s₂ := S1024x1) (1 : Fin 2) _ _ concatenates_S1024x1_S1024x1_S1024x2_d1 (ix2 i (0 : Fin 2)) rfl
    (ix2 i (0 : Fin 1)) (fun b => by match b with | ⟨0, _⟩ => rfl | ⟨1, _⟩ => rfl)).trans ?_
  rw [val_main_call0_v12_apply]
  exact (congrArg _ (funext fun a => Fin.ext (by match a with | ⟨0, _⟩ => rfl))).trans (wrapped0 i)

/-- Column 1 of the start indices at row i is the word of i. -/
theorem start1 (i : Fin 1024) : val_main_call0_v14 (F := F) (ix2 i (1 : Fin 2)) = BitVec.ofNat 32 i.val := by
  unfold val_main_call0_v14
  refine (concatenate_pair_apply_right (t := S1024x2) (s₁ := S1024x1) (s₂ := S1024x1) (1 : Fin 2) _ _ concatenates_S1024x1_S1024x1_S1024x2_d1 (ix2 i (1 : Fin 2)) rfl rfl
    (ix2 i (0 : Fin 1)) (fun b hb => by
      match b with
      | ⟨0, _⟩ => rfl
      | ⟨1, _⟩ => exact absurd rfl hb) rfl).trans ?_
  rw [val_main_call0_v13_apply]
  exact (congrArg _ (funext fun a => Fin.ext (by match a with | ⟨0, _⟩ => rfl))).trans (wrapped1 i)

/-! ## The gather at (b, i) -/

section Gather
variable {α : Type}

theorem getElem_single (l : List (Fin 2)) (k : List (Fin 3)) (hl : l = [0]) (hk : k = [0])
    (h : List.idxOf (0 : Fin 3) k < l.length) : l[List.idxOf (0 : Fin 3) k]'h = 0 := by
  subst hl hk; rfl

theorem op0 (idx : IVec S1024x2 32) (b : Fin 64) (i : Fin 1024) :
    (GD.operandIdx (ix2 b i) idx (0 : Fin 3)).val = b.val := by
  show GD.start (ix2 b i) idx 0 + GD.batchCoord (ix2 b i) 0 + GD.offCoord (ix2 b i) 0 = b.val
  rw [GatherDims.batchCoord_eq_zero _ _ _ List.not_mem_nil]
  unfold GatherDims.start
  rw [dif_neg (show ¬(0 : Fin 3) ∈ GD.startIndexMap by decide)]
  unfold GatherDims.offCoord
  rw [dif_pos (show (0 : Fin 3) ∈ GD.sKept by decide)]
  simp only [Nat.zero_add]
  exact congrArg (fun a : Fin 2 => ((ix2 b i) a).val) (getElem_single GD.offsetDims GD.sKept rfl (by decide) _)

theorem op1 (idx : IVec S1024x2 32) (b : Fin 64) (i : Fin 1024)
    (h : (idx (ix2 i (0 : Fin 2))).toInt.toNat = i.val) :
    (GD.operandIdx (ix2 b i) idx (1 : Fin 3)).val = i.val := by
  show GD.start (ix2 b i) idx 1 + GD.batchCoord (ix2 b i) 1 + GD.offCoord (ix2 b i) 1 = i.val
  rw [GatherDims.batchCoord_eq_zero _ _ _ List.not_mem_nil,
    GatherDims.offCoord_eq_zero _ _ _ (fun hm => ((GatherDims.mem_sKept _ _).mp hm).1 (by decide))]
  simp only [Nat.add_zero]
  unfold GatherDims.start
  rw [dif_pos (show (1 : Fin 3) ∈ GD.startIndexMap by decide)]
  have hsi : GD.siIdx (ix2 b i) ⟨List.idxOf (1 : Fin 3) GD.startIndexMap,
      List.idxOf_lt_length_iff.2 (show (1 : Fin 3) ∈ GD.startIndexMap by decide)⟩ = ix2 i (0 : Fin 2) := by
    funext c; refine Fin.ext ?_
    match c with
    | ⟨0, _⟩ => rfl
    | ⟨1, _⟩ => rfl
  rw [hsi, h]
  have := i.isLt
  show min i.val (1024 - 1) = i.val
  omega

theorem op2 (idx : IVec S1024x2 32) (b : Fin 64) (i : Fin 1024)
    (h : (idx (ix2 i (1 : Fin 2))).toInt.toNat = i.val) :
    (GD.operandIdx (ix2 b i) idx (2 : Fin 3)).val = i.val := by
  show GD.start (ix2 b i) idx 2 + GD.batchCoord (ix2 b i) 2 + GD.offCoord (ix2 b i) 2 = i.val
  rw [GatherDims.batchCoord_eq_zero _ _ _ List.not_mem_nil,
    GatherDims.offCoord_eq_zero _ _ _ (fun hm => ((GatherDims.mem_sKept _ _).mp hm).1 (by decide))]
  simp only [Nat.add_zero]
  unfold GatherDims.start
  rw [dif_pos (show (2 : Fin 3) ∈ GD.startIndexMap by decide)]
  have hsi : GD.siIdx (ix2 b i) ⟨List.idxOf (2 : Fin 3) GD.startIndexMap,
      List.idxOf_lt_length_iff.2 (show (2 : Fin 3) ∈ GD.startIndexMap by decide)⟩ = ix2 i (1 : Fin 2) := by
    funext c; refine Fin.ext ?_
    match c with
    | ⟨0, _⟩ => rfl
    | ⟨1, _⟩ => rfl
  rw [hsi, h]
  have := i.isLt
  show min i.val (1024 - 1) = i.val
  omega

/-- With start indices (i, i) at row i, the gather at (b, i) reads the operand at (b, i, i). -/
theorem gather_diag (x : S64x1024x1024.Idx → α) (idx : IVec S1024x2 32) (b : Fin 64) (i : Fin 1024)
    (h0 : (idx (ix2 i (0 : Fin 2))).toInt.toNat = i.val) (h1 : (idx (ix2 i (1 : Fin 2))).toInt.toNat = i.val) :
    Host.gather GD x idx (ix2 b i) = x (ix3 b i i) := by
  unfold Host.gather
  refine congrArg x (funext fun a => Fin.ext ?_)
  match a with
  | ⟨0, _⟩ => exact op0 idx b i
  | ⟨1, _⟩ => exact op1 idx b i h0
  | ⟨2, _⟩ => exact op2 idx b i h1

end Gather

/-- The reference's diagonal at (b, i) is the big Gram matrix at (b, i, i). -/
theorem diag_apply (X : (⟨S64x1024x64, .f32⟩ : BufTy).Contents (Elt F)) (b : Fin 64) (i : Fin 1024) :
    val_main_v1 (F := F) X (ix2 b i) = val_main_v0 (F := F) X (ix3 b i i) := by
  unfold val_main_v1
  refine gather_diag _ _ b i ?_ ?_
  · rw [start0, toInt_word i.val i.isLt]; rfl
  · rw [start1, toInt_word i.val i.isLt]; rfl

/-- At Ideal the big Gram matrix at (b, p, q) is the sum over k of x b p k * x b q k. -/
theorem gram_apply (X : (⟨S64x1024x64, .f32⟩ : BufTy).Contents (Elt Ideal)) (b : Fin 64) (p q : Fin 1024) :
    val_main_v0 (F := Ideal) X (ix3 b p q) = ∑ k : Fin 64, X (ix3 b p k) * X (ix3 b q k) := by
  rw [val_main_v0_apply]
  refine Finset.sum_congr rfl fun k _ => ?_
  exact congrArg₂ (fun s t : EReal => s * t)
    (congrArg X (funext fun a => Fin.ext (by match a with | ⟨0, _⟩ => rfl | ⟨1, _⟩ => rfl | ⟨2, _⟩ => rfl)))
    (congrArg X (funext fun a => Fin.ext (by match a with | ⟨0, _⟩ => rfl | ⟨1, _⟩ => rfl | ⟨2, _⟩ => rfl)))

end Cert.ReferenceIdeal.RefDiag

end
-- ==== Proof.RefValue.lean ====
/-
  The reference's result on the extended reals, as sums over coordinates. With
    rowSq b i = ∑ k, x b i k ^ 2      and      big b p q = ∑ k, x b p k * x b q k
  the diagonal of the big Gram matrix is rowSq, and the reference returns
    ( (0 + ∑ b i, (1 - 2 * rowSq b i) + rowSq b i ^ 2)
      + c * ((0 + ∑ b p q, big b p q ^ 2) - (0 + ∑ b i, rowSq b i ^ 2)) ) / 64
  where c is the float nearest one tenth and the zeros are the sums' initial values.
-/
import proofs.«136636_j37520834298331_2_alg».proof.Proof.RefDiag
import proofs.«136636_j37520834298331_2_alg».proof.Proof.Consts
import proofs.«136636_j37520834298331_2_alg».proof.Proof.RealSide

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.ReferenceIdeal.Read Cert.ReferenceIdeal.RefDiag Idealize.ShloMosaic.ValueIdx
open Cert.Consts (combine)

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

abbrev Arr := (⟨S64x1024x64, .f32⟩ : BufTy).Contents (Elt Ideal)

/-- Squared norm of row i of batch b. -/
def rowSq (X : Arr) (b : Fin 64) (i : Fin 1024) : EReal := ∑ k : Fin 64, X (ix3 b i k) * X (ix3 b i k)
/-- Entry (p, q) of the big Gram matrix of batch b. -/
def big (X : Arr) (b : Fin 64) (p q : Fin 1024) : EReal := ∑ k : Fin 64, X (ix3 b p k) * X (ix3 b q k)

theorem diag_eq (X : Arr) (b : Fin 64) (i : Fin 1024) : val_main_v1 (F := Ideal) X (ix2 b i) = rowSq X b i :=
  (diag_apply X b i).trans (gram_apply X b i i)

theorem v2_apply (X : Arr) (b : Fin 64) (i : Fin 1024) :
    val_main_v2 (F := Ideal) X (ix2 b i) = rowSq X b i * rowSq X b i := by
  rw [val_main_v2_apply, diag_eq]
  rfl

theorem v7_apply (X : Arr) (b : Fin 64) (i : Fin 1024) :
    val_main_v7 (F := Ideal) X (ix2 b i)
      = (Ideal.ofBits .f32 0x3F800000#32 - Ideal.ofBits .f32 0x40000000#32 * rowSq X b i) + rowSq X b i * rowSq X b i := by
  rw [val_main_v7_apply, val_main_v6_apply, v2_apply, val_main_v4_apply, val_main_v5_apply, val_main_v3_apply,
    val_main_cst_apply, val_main_cst_0_apply, diag_eq]
  rfl

theorem v9_apply (X : Arr) (b : Fin 64) (p q : Fin 1024) :
    val_main_v9 (F := Ideal) X (ix3 b p q) = big X b p q * big X b p q := by
  rw [val_main_v9_apply, RefDiag.gram_apply]
  rfl

/-- The diagonal part. -/
theorem v8_eq (X : Arr) : val_main_v8 (F := Ideal) X ix0 = Ideal.ofBits .f32 0x00000000#32
    + ∑ b : Fin 64, ∑ i : Fin 1024,
        ((Ideal.ofBits .f32 0x3F800000#32 - Ideal.ofBits .f32 0x40000000#32 * rowSq X b i) + rowSq X b i * rowSq X b i) := by
  rw [val_main_v8_apply, val_main_cst_1_apply]
  refine congrArg (fun s : EReal => Ideal.ofBits .f32 0x00000000#32 + s) ((sum_idx2 _).trans ?_)
  exact Finset.sum_congr rfl fun b _ => Finset.sum_congr rfl fun i _ => v7_apply X b i

/-- The sum of the squares of the big Gram matrix. -/
theorem v10_eq (X : Arr) : val_main_v10 (F := Ideal) X ix0 = Ideal.ofBits .f32 0x00000000#32
    + ∑ b : Fin 64, ∑ p : Fin 1024, ∑ q : Fin 1024, big X b p q * big X b p q := by
  rw [val_main_v10_apply, val_main_cst_2_apply]
  refine congrArg (fun s : EReal => Ideal.ofBits .f32 0x00000000#32 + s) ((sum_idx3 _).trans ?_)
  exact Finset.sum_congr rfl fun b _ => Finset.sum_congr rfl fun p _ => Finset.sum_congr rfl fun q _ => v9_apply X b p q

/-- The sum of the squares of its diagonal. -/
theorem v11_eq (X : Arr) : val_main_v11 (F := Ideal) X ix0 = Ideal.ofBits .f32 0x00000000#32
    + ∑ b : Fin 64, ∑ i : Fin 1024, rowSq X b i * rowSq X b i := by
  rw [val_main_v11_apply, val_main_cst_3_apply]
  refine congrArg (fun s : EReal => Ideal.ofBits .f32 0x00000000#32 + s) ((sum_idx2 _).trans ?_)
  exact Finset.sum_congr rfl fun b _ => Finset.sum_congr rfl fun i _ => v2_apply X b i

/-- The reference's result. -/
theorem result_eq (X : Arr) : val_main_v15 (F := Ideal) X ix0 = combine
    (Ideal.ofBits .f32 0x00000000#32 + ∑ b : Fin 64, ∑ i : Fin 1024,
        ((Ideal.ofBits .f32 0x3F800000#32 - Ideal.ofBits .f32 0x40000000#32 * rowSq X b i) + rowSq X b i * rowSq X b i))
    ((Ideal.ofBits .f32 0x00000000#32 + ∑ b : Fin 64, ∑ p : Fin 1024, ∑ q : Fin 1024, big X b p q * big X b p q)
      - (Ideal.ofBits .f32 0x00000000#32 + ∑ b : Fin 64, ∑ i : Fin 1024, rowSq X b i * rowSq X b i)) := by
  rw [val_main_v15_apply, val_main_v14_apply, val_main_v13_apply, val_main_v12_apply, val_main_cst_4_apply, val_main_cst_5_apply,
    v8_eq, v10_eq, v11_eq]
  rfl

/-! ## With real inputs -/

section Real
variable (X : Arr) (Xr : Fin 64 → Fin 1024 → Fin 64 → ℝ)
variable (hXr : ∀ B d k, X (ix3 B d k) = ((Xr B d k : ℝ) : EReal))
include hXr

theorem rowSq_coe (B : Fin 64) (i : Fin 1024) : rowSq X B i = ((RealSide.n Xr B i : ℝ) : EReal) := by
  unfold rowSq RealSide.n
  rw [Cert.Consts.coe_sum]
  refine Finset.sum_congr rfl fun k _ => ?_
  rw [hXr, EReal.coe_mul]

theorem big_coe (B : Fin 64) (p q : Fin 1024) : big X B p q = ((RealSide.M Xr B p q : ℝ) : EReal) := by
  unfold big RealSide.M
  rw [Cert.Consts.coe_sum]
  refine Finset.sum_congr rfl fun k _ => ?_
  rw [hXr, hXr, EReal.coe_mul]

/-- The reference's result: the two real sums, combined. -/
theorem result_coe : val_main_v15 (F := Ideal) X ix0 = combine
    (((0 + ∑ B : Fin 64, ∑ d : Fin 1024, ((1 - 2 * RealSide.n Xr B d) + RealSide.n Xr B d * RealSide.n Xr B d) : ℝ)) : EReal)
    ((((0 + ∑ B : Fin 64, ∑ p : Fin 1024, ∑ q : Fin 1024, RealSide.M Xr B p q * RealSide.M Xr B p q)
      - (0 + ∑ B : Fin 64, ∑ d : Fin 1024, RealSide.n Xr B d * RealSide.n Xr B d) : ℝ)) : EReal) := by
  rw [result_eq]
  simp only [rowSq_coe X Xr hXr, big_coe X Xr hXr, Cert.Consts.ofBits_zero, Cert.Consts.ofBits_one, Cert.Consts.ofBits_two,
    EReal.coe_add, EReal.coe_sub, EReal.coe_mul, Cert.Consts.coe_sum]

end Real

end Cert.ReferenceIdeal.RefValue

end
-- ==== Proof.Finite.lean ====
/-
  What the precondition gives: every entry of the input is finite, that is, a real number. The precondition is the
  conjunction over all entries of |x| < +∞; an extended real whose absolute value max(x, -x) is below +∞ is neither
  infinity.
-/
import proofs.«136636_j37520834298331_2_alg».proof.Pre_finite_inputs
import proofs.«136636_j37520834298331_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.TcCoe Idealize.SL.Sem

namespace Cert.Finite

open Idealize.ShloMosaic Idealize.ShloMosaic.ValueIdx Cert.Pre_finite_inputs

instance : Subsingleton S_.Idx := ⟨fun a b => funext fun d => d.elim0⟩

/-- The word of +∞ denotes the top element. -/
theorem ofBits_inf : Ideal.ofBits .f32 0x7F800000#32 = ⊤ := by
  simp [Ideal.ofBits, Ideal.ieee]

/-- An extended real with max(x, -x) < ⊤ is a real. -/
theorem real_of_abs_lt_top (x : EReal) (h : max x (-x) < ⊤) : ∃ r : ℝ, x = r := by
  induction x using EReal.rec with
  | bot => exact absurd h (by simp)
  | top => exact absurd h (by simp)
  | coe r => exact ⟨r, rfl⟩

/-- Under the precondition every entry of the input is a real number. -/
theorem real_of_pre (x : FVec Ideal S64x1024x64 .f32) (h : fn (F := Ideal) x = fun _ => 1#1) (i : S64x1024x64.Idx) :
    ∃ r : ℝ, x i = r := by
  have h0 := congrFun h ix0
  dsimp only [fn] at h0
  have hi := Host.reduce_andi_all _ _ _ _ _ h0 i
  have hlt : max (x i) (-(x i)) < Ideal.ofBits .f32 0x7F800000#32 := by
    by_contra hn
    have : (1#1 : BitVec 1) = 0#1 := by
      rw [← hi]
      show Ideal.cmp .olt (max (x i) (-(x i))) (Ideal.ofBits .f32 0x7F800000#32) = 0#1
      unfold Ideal.cmp
      simp only [hn, decide_false]
      rfl
    exact absurd this (by decide)
  rw [ofBits_inf] at hlt
  exact real_of_abs_lt_top _ hlt

end Cert.Finite

end
-- ==== Proof.lean ====
/-
  The kernel computes an orthogonality loss of x[B, d, k] (64 batches, 1024 rows, 64 columns) without ever forming the
  big Gram matrix m = x xᵀ per batch. With  n b i = ∑ k, x b i k ^ 2  (the diagonal of m) the loss is
      ( ∑ b i, (1 - 2 n b i + n b i ^ 2)  +  c · ( ∑ b i j, m b i j ^ 2  -  ∑ b i, n b i ^ 2 ) ) / 64,
  c the float nearest one tenth. The reference evaluates exactly this: one batched product into [64, 1024, 1024], its
  diagonal by a gather at the index pairs (i, i), three total sums. The kernel walks the batches in blocks of eight,
  four blocks to a core, two cores; per block it adds  ∑ b, (1024 - 2 ∑ i n b i + ∑ i n b i ^ 2)  and
  ∑ b, (‖g b‖² - ∑ i n b i ^ 2)  to two one-word accumulators, where g = xᵀ x is the small [64, 64] Gram matrix of a
  batch; a core's last step writes each accumulator at position (0, 0, 0) of an otherwise zero output block, and
  the host sums the two cores' words and applies the same last two steps as the reference.

  On the extended reals the two agree when every input entry is finite (which the precondition says): then all
  values are real numbers, sums may be regrouped freely (64 batches = 2 · 4 blocks of 8; 1024 ones sum to 1024), and
      ∑ i j, (∑ k, x i k · x j k)²  =  ∑ k l, (∑ i, x i k · x i l)²      (‖x xᵀ‖² = ‖xᵀ x‖², Proof/GramLaw.lean).
  The words of one tenth and of 64 stand in the same place of both programs and are never evaluated; the narrowing
  of the matrix unit's operands to bf16 is the identity on the extended reals. The ideal pass rewrote nothing, so
  the idealized kernel is the kernel's own text and that conjunct is trivial.

  Modules: GramLaw and RealSide (the real algebra); Consts (the float words 0, 1, 2, 1024 as reals; the shared last
  steps); CaseValues, Chain, KernelArrays, KernelTail, KernelRun (what the kernel program's run leaves, for any
  float instance); Payloads, KernelValue (the kernel's arithmetic read at an index, then with real inputs);
  RefDiag, RefValue (the reference read at an index, then with real inputs); Finite (the precondition gives reals).
-/
import proofs.«136636_j37520834298331_2_alg».proof.Defs
import proofs.«136636_j37520834298331_2_alg».proof.Proof.Gen.Kernel
import proofs.«136636_j37520834298331_2_alg».proof.Proof.Gen.Kernel.Skeleton
import proofs.«136636_j37520834298331_2_alg».proof.Proof.Gen.Kernel.Launch
import proofs.«136636_j37520834298331_2_alg».proof.Proof.Gen.Kernel.Points
import proofs.«136636_j37520834298331_2_alg».proof.Proof.Gen.Kernel.Frame
import proofs.«136636_j37520834298331_2_alg».proof.Proof.Gen.KernelIdeal
import proofs.«136636_j37520834298331_2_alg».proof.Proof.Gen.KernelIdeal.Skeleton
import proofs.«136636_j37520834298331_2_alg».proof.Proof.Gen.KernelIdeal.Launch
import proofs.«136636_j37520834298331_2_alg».proof.Proof.Gen.KernelIdeal.Points
import proofs.«136636_j37520834298331_2_alg».proof.Proof.Gen.KernelIdeal.Frame
import proofs.«136636_j37520834298331_2_alg».proof.Proof.Gen.ReferenceIdeal
import proofs.«136636_j37520834298331_2_alg».proof.Proof.Gen.ReferenceIdeal.Run
import proofs.«136636_j37520834298331_2_alg».proof.Proof.Gen.ReferenceIdeal.Read
import proofs.«136636_j37520834298331_2_alg».proof.Proof.Gen.Pre_finite_inputs
import proofs.«136636_j37520834298331_2_alg».proof.Proof.KernelRun
import proofs.«136636_j37520834298331_2_alg».proof.Proof.KernelValue
import proofs.«136636_j37520834298331_2_alg».proof.Proof.RefValue
import proofs.«136636_j37520834298331_2_alg».proof.Proof.Finite
import proofs.«136636_j37520834298331_2_alg».proof.Proof.RealSide
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its argument alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- With real inputs the reference's result and the kernel's are the same extended real: both are the shared last
    steps applied to a diagonal sum and an off-diagonal sum, and those sums agree over the reals. -/
theorem value_eq (m : (ℓ : Loc Cert.KernelIdeal.nD Cert.KernelIdeal.τ Cert.KernelIdeal.sig) → Buf (Elt Ideal) ℓ)
    (c : Dev Cert.KernelIdeal.nD)
    (hfin : ∀ i, ∃ r : ℝ, Cert.KernelIdeal.Value.Xof m c i = r) :
    Cert.ReferenceIdeal.Read.val_main_v15 (F := Ideal) (Cert.KernelIdeal.Value.Xof m c)
      = Cert.KernelIdeal.Tail.tailOf (F := Ideal) (Cert.KernelIdeal.Arrays.arrD m c) (Cert.KernelIdeal.Arrays.arrO m c) := by
  funext i
  obtain rfl : i = ix0 := eq_ix0 i
  choose R hR using hfin
  have hXr : ∀ (B : Fin 64) (d : Fin 1024) (k : Fin 64),
      Cert.KernelIdeal.Value.Xof m c (ix3 B d k) = (((fun B d k => R (ix3 B d k)) B d k : ℝ) : EReal) := fun B d k => hR _
  rw [Cert.ReferenceIdeal.RefValue.result_coe _ (fun B d k => R (ix3 B d k)) hXr,
    Cert.KernelIdeal.Value.result_coe m c (fun B d k => R (ix3 B d k)) hXr, RealSide.diag_eq, RealSide.off_eq]

/-- From memories that agree on the argument and satisfy the precondition, both programs run and end with the same
    result. -/
theorem algebraic : Cert.algebraic_KernelIdeal_ReferenceIdeal := by
  intro m ρ m' ρ' hpre hagree
  refine ⟨fun c => Cert.KernelIdeal.Tail.tailOf (F := Ideal) (Cert.KernelIdeal.Arrays.arrD m c) (Cert.KernelIdeal.Arrays.arrO m c),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  exact value_eq m c (fun i => Cert.Finite.real_of_pre _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
